-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v159) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S128x128 .f32) (main_arg14 : FVec F S128x64 .f32) (main_arg15 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S128x128 .f32) (main_arg10 : FVec F S128 .f32) (main_arg11 : FVec F S128x128 .f32) (main_arg12 : FVec F S128 .f32) (main_arg13 : FVec F S128x128 .f32) (main_arg14 : FVec F S128x64 .f32) (main_arg15 : FVec F S64 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_arg14 main_arg15 main_v48 main_v49 main_v50

def fn_part1 {F : FTy → Type} [FloatOps F] (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_arg13 : FVec F S128x128 .f32) (main_arg14 : FVec F S128x64 .f32) (main_arg15 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S200000x128 .f32) (main_arg1 : FVec F S100000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128 .f32) (main_arg13 : FVec F S128x128 .f32) (main_arg14 : FVec F S128x64 .f32) (main_arg15 : FVec F S64 .f32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_v13 main_v16
-- ==== Kernel.lean ====
abbrev S200000x128 : Shape := ⟨2, ![200000, 128]⟩
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S200000 : Shape := ⟨1, ![200000]⟩
abbrev S800000x1 : Shape := ⟨2, ![800000, 1]⟩
abbrev S100000 : Shape := ⟨1, ![100000]⟩
abbrev S200000x1 : Shape := ⟨2, ![200000, 1]⟩
abbrev S200000x2 : Shape := ⟨2, ![200000, 2]⟩
abbrev S800000x128 : Shape := ⟨2, ![800000, 128]⟩
abbrev S4000x128 : Shape := ⟨2, ![4000, 128]⟩
abbrev S4000x2 : Shape := ⟨2, ![4000, 2]⟩
abbrev S4000x1 : Shape := ⟨2, ![4000, 1]⟩
abbrev S1x128 : Shape := ⟨2, ![1, 128]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1x64 : Shape := ⟨2, ![1, 64]⟩

abbrev nBuf : Space → Nat
  | .hbm => 86
  | .vmem => 21
  | .smem => 0
  | _ => 0

abbrev bufTy : (tb : Table) → Fin (tcTables nBuf tb) → BufTy
  | .hbm, ⟨0, _⟩ => ⟨S200000x128, .f32⟩
  | .hbm, ⟨1, _⟩ => ⟨S100000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128x64, .f32⟩
  | .hbm, ⟨15, _⟩ => ⟨S64, .f32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S200000, .f32⟩
  | .hbm, ⟨20, _⟩ => ⟨S800000x1, .i32⟩
  | .hbm, ⟨21, _⟩ => ⟨S200000, .f32⟩
  | .hbm, ⟨22, _⟩ => ⟨S_, .f32⟩
  | .hbm, ⟨23, _⟩ => ⟨S100000, .f32⟩
  | .hbm, ⟨24, _⟩ => ⟨S800000x1, .i32⟩
  | .hbm, ⟨25, _⟩ => ⟨S100000, .f32⟩
  | .hbm, ⟨26, _⟩ => ⟨S_, .f32⟩
  | .hbm, ⟨27, _⟩ => ⟨S200000, .f32⟩
  | .hbm, ⟨28, _⟩ => ⟨S200000, .f32⟩
  | .hbm, ⟨29, _⟩ => ⟨S_, .f32⟩
  | .hbm, ⟨30, _⟩ => ⟨S200000, .f32⟩
  | .hbm, ⟨31, _⟩ => ⟨S200000, .f32⟩
  | .hbm, ⟨32, _⟩ => ⟨S_, .f32⟩
  | .hbm, ⟨33, _⟩ => ⟨S200000, .f32⟩
  | .hbm, ⟨34, _⟩ => ⟨S200000, .i1⟩
  | .hbm, ⟨35, _⟩ => ⟨S_, .f32⟩
  | .hbm, ⟨36, _⟩ => ⟨S200000, .f32⟩
  | .hbm, ⟨37, _⟩ => ⟨S200000, .f32⟩
  | .hbm, ⟨38, _⟩ => ⟨S200000, .f32⟩
  | .hbm, ⟨39, _⟩ => ⟨S_, .f32⟩
  | .hbm, ⟨40, _⟩ => ⟨S_, .f32⟩
  | .hbm, ⟨41, _⟩ => ⟨S200000, .f32⟩
  | .hbm, ⟨42, _⟩ => ⟨S200000, .f32⟩
  | .hbm, ⟨43, _⟩ => ⟨S_, .f32⟩
  | .hbm, ⟨44, _⟩ => ⟨S100000, .f32⟩
  | .hbm, ⟨45, _⟩ => ⟨S100000, .i1⟩
  | .hbm, ⟨46, _⟩ => ⟨S_, .f32⟩
  | .hbm, ⟨47, _⟩ => ⟨S100000, .f32⟩
  | .hbm, ⟨48, _⟩ => ⟨S100000, .f32⟩
  | .hbm, ⟨49, _⟩ => ⟨S100000, .f32⟩
  | .hbm, ⟨50, _⟩ => ⟨S_, .f32⟩
  | .hbm, ⟨51, _⟩ => ⟨S_, .f32⟩
  | .hbm, ⟨52, _⟩ => ⟨S100000, .f32⟩
  | .hbm, ⟨53, _⟩ => ⟨S100000, .f32⟩
  | .hbm, ⟨54, _⟩ => ⟨S200000x1, .f32⟩
  | .hbm, ⟨55, _⟩ => ⟨S200000x1, .f32⟩
  | .hbm, ⟨56, _⟩ => ⟨S200000x2, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x128, .f32⟩
  | .hbm, ⟨66, _⟩ => ⟨S_, .f32⟩
  | .hbm, ⟨67, _⟩ => ⟨S200000x128, .f32⟩
  | .hbm, ⟨68, _⟩ => ⟨S800000x1, .i32⟩
  | .hbm, ⟨69, _⟩ => ⟨S200000x128, .f32⟩
  | .hbm, ⟨70, _⟩ => ⟨S200000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S_, .f32⟩
  | .hbm, ⟨81, _⟩ => ⟨S100000x128, .f32⟩
  | .hbm, ⟨82, _⟩ => ⟨S800000x1, .i32⟩
  | .hbm, ⟨83, _⟩ => ⟨S100000x128, .f32⟩
  | .hbm, ⟨84, _⟩ => ⟨S100000x1, .f32⟩
  | .hbm, ⟨85, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x2, .f32⟩
  | .local _ .vmem, ⟨3, _⟩ => ⟨S4000x2, .f32⟩
  | .local _ .vmem, ⟨4, _⟩ => ⟨S4000x128, .f32⟩
  | .local _ .vmem, ⟨5, _⟩ => ⟨S4000x128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S128x128, .f32⟩
  | .local _ .vmem, ⟨10, _⟩ => ⟨S4000x128, .f32⟩
  | .local _ .vmem, ⟨11, _⟩ => ⟨S4000x128, .f32⟩
  | .local _ .vmem, ⟨12, _⟩ => ⟨S5000x128, .f32⟩
  | .local _ .vmem, ⟨13, _⟩ => ⟨S5000x128, .f32⟩
  | .local _ .vmem, ⟨14, _⟩ => ⟨S5000x1, .f32⟩
  | .local _ .vmem, ⟨15, _⟩ => ⟨S5000x1, .f32⟩
  | .local _ .vmem, ⟨16, _⟩ => ⟨S128, .f32⟩
  | .local _ .vmem, ⟨17, _⟩ => ⟨S128x64, .f32⟩
  | .local _ .vmem, ⟨18, _⟩ => ⟨S64, .f32⟩
  | .local _ .vmem, ⟨19, _⟩ => ⟨S5000x64, .f32⟩
  | .local _ .vmem, ⟨20, _⟩ => ⟨S5000x64, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst_1 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_2 : Ref sig .tc := ⟨.hbm, 26, rfl⟩
abbrev main_v7 : Ref sig .tc := ⟨.hbm, 27, rfl⟩
abbrev main_v8 : Ref sig .tc := ⟨.hbm, 28, rfl⟩
abbrev main_cst_3 : Ref sig .tc := ⟨.hbm, 29, rfl⟩
abbrev main_v9 : Ref sig .tc := ⟨.hbm, 30, rfl⟩
abbrev main_v10 : Ref sig .tc := ⟨.hbm, 31, rfl⟩
abbrev main_cst_4 : Ref sig .tc := ⟨.hbm, 32, rfl⟩
abbrev main_v11 : Ref sig .tc := ⟨.hbm, 33, rfl⟩
abbrev main_v12 : Ref sig .tc := ⟨.hbm, 34, rfl⟩
abbrev main_cst_5 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_6 : Ref sig .tc := ⟨.hbm, 39, rfl⟩
abbrev main_call0_v0 : Ref sig .tc := ⟨.hbm, 40, rfl⟩
abbrev main_call0_v1 : Ref sig .tc := ⟨.hbm, 41, rfl⟩
abbrev main_v16 : Ref sig .tc := ⟨.hbm, 42, rfl⟩
abbrev main_cst_7 : Ref sig .tc := ⟨.hbm, 43, rfl⟩
abbrev main_v17 : Ref sig .tc := ⟨.hbm, 44, rfl⟩
abbrev main_v18 : Ref sig .tc := ⟨.hbm, 45, rfl⟩
abbrev main_cst_8 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_9 : Ref sig .tc := ⟨.hbm, 50, rfl⟩
abbrev main_call1_v0 : Ref sig .tc := ⟨.hbm, 51, rfl⟩
abbrev main_call1_v1 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c : Ref sig .tc := ⟨.hbm, 57, rfl⟩
abbrev main_v26 : Ref sig .tc := ⟨.hbm, 58, rfl⟩
abbrev main_v27 : Ref sig .tc := ⟨.hbm, 59, rfl⟩
abbrev main_c_10 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_cst_11 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_12 : Ref sig .tc := ⟨.hbm, 71, rfl⟩
abbrev main_v37 : Ref sig .tc := ⟨.hbm, 72, rfl⟩
abbrev main_v38 : Ref sig .tc := ⟨.hbm, 73, rfl⟩
abbrev main_c_13 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_14 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S200000 : S_.BroadcastsInDim S200000 (![] : Fin 0 → Fin S200000.rank)
  bcast_S800000_S800000x1_0 : S800000.BroadcastsInDim S800000x1 (![0] : Fin 1 → Fin S800000x1.rank)
  bcast_S_S100000 : S_.BroadcastsInDim S100000 (![] : Fin 0 → Fin S100000.rank)
  bcast_S200000_S200000x1_0 : S200000.BroadcastsInDim S200000x1 (![0] : Fin 1 → Fin S200000x1.rank)
  concatenates_S200000x1_S200000x1_S200000x2_d1 : Shape.Concatenates [S200000x1, S200000x1] S200000x2 1
  bcast_S_S200000x128 : S_.BroadcastsInDim S200000x128 (![] : Fin 0 → Fin S200000x128.rank)
  inb_S4000x2_S4000x1_0_0 : ∀ a, (![0, 0] : Fin 2 → Nat) a + S4000x1.size a ≤ S4000x2.size a
  h_S4000x1 : 0 < S4000x1.numel
  shapeCasts_S4000x1_S4000x1 : S4000x1.ShapeCasts S4000x1
  inb_S4000x2_S4000x1_0_1 : ∀ a, (![0, 1] : Fin 2 → Nat) a + S4000x1.size a ≤ S4000x2.size a
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  bcast_S_S100000x128 : S_.BroadcastsInDim S100000x128 (![] : Fin 0 → Fin S100000x128.rank)
  bcast_S100000_S100000x1_0 : S100000.BroadcastsInDim S100000x1 (![0] : Fin 1 → Fin S100000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S200000_S800000x1_S800000_n_0_0_1_wf : ScatterDims.WF S200000 S800000x1 S800000 [] [0] [0] 1
  scatter_S100000_S800000x1_S800000_n_0_0_1_wf : ScatterDims.WF S100000 S800000x1 S800000 [] [0] [0] 1
  gather_S100000x128_S800000x1_S800000x128_1_0_n_n_0_1_1128_wf : GatherDims.WF S100000x128 S800000x1 S800000x128 [1] [0] [] [0] [] 1 ![1, 128]
  scatter_S200000x128_S800000x1_S800000x128_1_0_0_1_wf : ScatterDims.WF S200000x128 S800000x1 S800000x128 [1] [0] [0] 1
  dot_S4000x128_S128x128_S4000x128_1_0_0_1_n_n_wf : DotDims.WF S4000x128 S128x128 S4000x128 [1] [0] [0] [1] [] []
  gather_S200000x128_S800000x1_S800000x128_1_0_n_n_0_1_1128_wf : GatherDims.WF S200000x128 S800000x1 S800000x128 [1] [0] [] [0] [] 1 ![1, 128]
  scatter_S100000x128_S800000x1_S800000x128_1_0_0_1_wf : ScatterDims.WF S100000x128 S800000x1 S800000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S200000x128.size a
  hwx0_0 : ∀ i : grid0.Coords, EltTy.bits .f32 = 32 ∨ (Rect.block (s := S200000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x2.size a ≤ S200000x2.size a
  hwx0_1 : ∀ i : grid0.Coords, EltTy.bits .f32 = 32 ∨ (Rect.block (s := S200000x2) S4000x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S200000x128.size a
  hwx0_2 : ∀ i : grid0.Coords, EltTy.bits .f32 = 32 ∨ (Rect.block (s := S200000x128) S4000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4000x128.size a ≤ S200000x128.size a
  hwx0_7 : ∀ i : grid0.Coords, EltTy.bits .f32 = 32 ∨ (Rect.block (s := S200000x128) S4000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v35) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S4000x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg8) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg9) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36) S4000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S200000x128 : Shape := ⟨2, ![200000, 128]⟩
abbrev S100000x128 : Shape := ⟨2, ![100000, 128]⟩
abbrev S800000 : Shape := ⟨1, ![800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S200000 : Shape := ⟨1, ![200000]⟩
abbrev S800000x1 : Shape := ⟨2, ![800000, 1]⟩
abbrev S100000 : Shape := ⟨1, ![100000]⟩
abbrev S800000x128 : Shape := ⟨2, ![800000, 128]⟩
abbrev S1x128 : Shape := ⟨2, ![1, 128]⟩
abbrev S200000x1 : Shape := ⟨2, ![200000, 1]⟩
abbrev S100000x64 : Shape := ⟨2, ![100000, 64]⟩
abbrev S1x64 : Shape := ⟨2, ![1, 64]⟩

abbrev nBuf : Space → Nat
  | .hbm => 236
  | .vmem => 0
  | .smem => 0
  | _ => 0

abbrev hbmTy0_0 (i : Nat) : BufTy := match i % 128 with
  | 0 => ⟨S200000x128, .f32⟩
  | 1 => ⟨S100000x128, .f32⟩
  | 2 => ⟨S800000, .i32⟩
  | 3 => ⟨S800000, .i32⟩
  | 4 => ⟨S128x128, .f32⟩
  | 5 => ⟨S128, .f32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128, .f32⟩
  | 13 => ⟨S128x128, .f32⟩
  | 14 => ⟨S128x64, .f32⟩
  | 15 => ⟨S64, .f32⟩
  | 16 => ⟨S200000x128, .f32⟩
  | 17 => ⟨S_, .f32⟩
  | 18 => ⟨S800000, .f32⟩
  | 19 => ⟨S_, .f32⟩
  | 20 => ⟨S200000, .f32⟩
  | 21 => ⟨S800000x1, .i32⟩
  | 22 => ⟨S200000, .f32⟩
  | 23 => ⟨S_, .f32⟩
  | 24 => ⟨S100000, .f32⟩
  | 25 => ⟨S800000x1, .i32⟩
  | 26 => ⟨S100000, .f32⟩
  | 27 => ⟨S_, .f32⟩
  | 28 => ⟨S200000, .f32⟩
  | 29 => ⟨S200000, .i1⟩
  | 30 => ⟨S_, .f32⟩
  | 31 => ⟨S200000, .f32⟩
  | 32 => ⟨S200000, .f32⟩
  | 33 => ⟨S200000, .f32⟩
  | 34 => ⟨S_, .f32⟩
  | 35 => ⟨S_, .f32⟩
  | 36 => ⟨S200000, .f32⟩
  | 37 => ⟨S200000, .f32⟩
  | 38 => ⟨S_, .f32⟩
  | 39 => ⟨S100000, .f32⟩
  | 40 => ⟨S100000, .i1⟩
  | 41 => ⟨S_, .f32⟩
  | 42 => ⟨S100000, .f32⟩
  | 43 => ⟨S100000, .f32⟩
  | 44 => ⟨S100000, .f32⟩
  | 45 => ⟨S_, .f32⟩
  | 46 => ⟨S_, .f32⟩
  | 47 => ⟨S100000, .f32⟩
  | 48 => ⟨S100000, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000, .f32⟩
  | 67 => ⟨S800000, .f32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x128, .f32⟩
  | 77 => ⟨S800000x1, .f32⟩
  | 78 => ⟨S800000x128, .f32⟩
  | 79 => ⟨S800000x128, .f32⟩
  | 80 => ⟨S_, .f32⟩
  | 81 => ⟨S100000x128, .f32⟩
  | 82 => ⟨S800000x1, .i32⟩
  | 83 => ⟨S100000x128, .f32⟩
  | 84 => ⟨S1x128, .f32⟩
  | 85 => ⟨S100000x128, .f32⟩
  | 86 => ⟨S100000x128, .f32⟩
  | 87 => ⟨S_, .f32⟩
  | 88 => ⟨S100000x128, .f32⟩
  | 89 => ⟨S100000x128, .f32⟩
  | 90 => ⟨S_, .f32⟩
  | 91 => ⟨S800000, .f32⟩
  | 92 => ⟨S_, .f32⟩
  | 93 => ⟨S200000, .f32⟩
  | 94 => ⟨S800000x1, .i32⟩
  | 95 => ⟨S200000, .f32⟩
  | 96 => ⟨S_, .i32⟩
  | 97 => ⟨S800000, .i32⟩
  | 98 => ⟨S800000, .i1⟩
  | 99 => ⟨S_, .i32⟩
  | 100 => ⟨S800000, .i32⟩
  | 101 => ⟨S800000, .i32⟩
  | 102 => ⟨S800000, .i32⟩
  | 103 => ⟨S800000x1, .i32⟩
  | 104 => ⟨S800000x128, .f32⟩
  | 105 => ⟨S_, .f32⟩
  | 106 => ⟨S200000x128, .f32⟩
  | 107 => ⟨S800000x1, .i32⟩
  | 108 => ⟨S200000x128, .f32⟩
  | 109 => ⟨S_, .f32⟩
  | 110 => ⟨S200000, .f32⟩
  | 111 => ⟨S200000, .f32⟩
  | 112 => ⟨S200000x1, .f32⟩
  | 113 => ⟨S200000x128, .f32⟩
  | 114 => ⟨S200000x128, .f32⟩
  | 115 => ⟨S200000x128, .f32⟩
  | 116 => ⟨S1x128, .f32⟩
  | 117 => ⟨S200000x128, .f32⟩
  | 118 => ⟨S200000x128, .f32⟩
  | 119 => ⟨S200000x128, .f32⟩
  | 120 => ⟨S200000x128, .f32⟩
  | 121 => ⟨S_, .f32⟩
  | 122 => ⟨S200000x128, .f32⟩
  | 123 => ⟨S200000x128, .f32⟩
  | 124 => ⟨S200000x128, .f32⟩
  | 125 => ⟨S_, .f32⟩
  | 126 => ⟨S800000, .f32⟩
  | 127 => ⟨S_, .f32⟩
  | _ => ⟨S200000x128, .f32⟩

abbrev hbmTy0_1 (i : Nat) : BufTy := match i % 128 with
  | 0 => ⟨S200000, .f32⟩
  | 1 => ⟨S800000x1, .i32⟩
  | 2 => ⟨S200000, .f32⟩
  | 3 => ⟨S_, .f32⟩
  | 4 => ⟨S100000, .f32⟩
  | 5 => ⟨S800000x1, .i32⟩
  | 6 => ⟨S100000, .f32⟩
  | 7 => ⟨S_, .f32⟩
  | 8 => ⟨S200000, .f32⟩
  | 9 => ⟨S200000, .i1⟩
  | 10 => ⟨S_, .f32⟩
  | 11 => ⟨S200000, .f32⟩
  | 12 => ⟨S200000, .f32⟩
  | 13 => ⟨S200000, .f32⟩
  | 14 => ⟨S_, .f32⟩
  | 15 => ⟨S_, .f32⟩
  | 16 => ⟨S200000, .f32⟩
  | 17 => ⟨S200000, .f32⟩
  | 18 => ⟨S_, .f32⟩
  | 19 => ⟨S100000, .f32⟩
  | 20 => ⟨S100000, .i1⟩
  | 21 => ⟨S_, .f32⟩
  | 22 => ⟨S100000, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000, .f32⟩
  | 47 => ⟨S800000, .f32⟩
  | 48 => ⟨S_, .i32⟩
  | 49 => ⟨S800000, .i32⟩
  | 50 => ⟨S800000, .i1⟩
  | 51 => ⟨S_, .i32⟩
  | 52 => ⟨S800000, .i32⟩
  | 53 => ⟨S800000, .i32⟩
  | 54 => ⟨S800000, .i32⟩
  | 55 => ⟨S800000x1, .i32⟩
  | 56 => ⟨S800000x128, .f32⟩
  | 57 => ⟨S800000x1, .f32⟩
  | 58 => ⟨S800000x128, .f32⟩
  | 59 => ⟨S800000x128, .f32⟩
  | 60 => ⟨S_, .f32⟩
  | 61 => ⟨S100000x128, .f32⟩
  | 62 => ⟨S800000x1, .i32⟩
  | 63 => ⟨S100000x128, .f32⟩
  | 64 => ⟨S1x128, .f32⟩
  | 65 => ⟨S100000x128, .f32⟩
  | 66 => ⟨S100000x128, .f32⟩
  | 67 => ⟨S_, .f32⟩
  | 68 => ⟨S100000x128, .f32⟩
  | 69 => ⟨S100000x128, .f32⟩
  | 70 => ⟨S_, .f32⟩
  | 71 => ⟨S800000, .f32⟩
  | 72 => ⟨S_, .f32⟩
  | 73 => ⟨S200000, .f32⟩
  | 74 => ⟨S800000x1, .i32⟩
  | 75 => ⟨S200000, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x128, .f32⟩
  | 85 => ⟨S_, .f32⟩
  | 86 => ⟨S200000x128, .f32⟩
  | 87 => ⟨S800000x1, .i32⟩
  | 88 => ⟨S200000x128, .f32⟩
  | 89 => ⟨S_, .f32⟩
  | 90 => ⟨S200000, .f32⟩
  | 91 => ⟨S200000, .f32⟩
  | 92 => ⟨S200000x1, .f32⟩
  | 93 => ⟨S200000x128, .f32⟩
  | 94 => ⟨S200000x128, .f32⟩
  | 95 => ⟨S200000x128, .f32⟩
  | 96 => ⟨S1x128, .f32⟩
  | 97 => ⟨S200000x128, .f32⟩
  | 98 => ⟨S200000x128, .f32⟩
  | 99 => ⟨S200000x128, .f32⟩
  | 100 => ⟨S200000x128, .f32⟩
  | 101 => ⟨S_, .f32⟩
  | 102 => ⟨S200000x128, .f32⟩
  | 103 => ⟨S200000x128, .f32⟩
  | 104 => ⟨S100000x64, .f32⟩
  | 105 => ⟨S1x64, .f32⟩
  | 106 => ⟨S100000x64, .f32⟩
  | 107 => ⟨S100000x64, .f32⟩
  | _ => ⟨S200000x128, .f32⟩

abbrev hbmTy (i : Nat) : BufTy := match i / 128 with
  | 0 => hbmTy0_0 i
  | 1 => hbmTy0_1 i
  | _ => ⟨S200000x128, .f32⟩

abbrev bufTy : (tb : Table) → Fin (tcTables nBuf tb) → BufTy
  | .hbm, ⟨i, _⟩ => hbmTy i
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_cst_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_cst_1 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_2 : Ref sig .tc := ⟨.hbm, 27, rfl⟩
abbrev main_v8 : Ref sig .tc := ⟨.hbm, 28, rfl⟩
abbrev main_v9 : Ref sig .tc := ⟨.hbm, 29, rfl⟩
abbrev main_cst_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v13 : Ref sig .tc := ⟨.hbm, 37, rfl⟩
abbrev main_cst_5 : Ref sig .tc := ⟨.hbm, 38, rfl⟩
abbrev main_v14 : Ref sig .tc := ⟨.hbm, 39, rfl⟩
abbrev main_v15 : Ref sig .tc := ⟨.hbm, 40, rfl⟩
abbrev main_cst_6 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_7 : Ref sig .tc := ⟨.hbm, 45, rfl⟩
abbrev main_call1_v0 : Ref sig .tc := ⟨.hbm, 46, rfl⟩
abbrev main_call1_v1 : Ref sig .tc := ⟨.hbm, 47, rfl⟩
abbrev main_v19 : Ref sig .tc := ⟨.hbm, 48, rfl⟩
abbrev main_c : Ref sig .tc := ⟨.hbm, 49, rfl⟩
abbrev main_v20 : Ref sig .tc := ⟨.hbm, 50, rfl⟩
abbrev main_v21 : Ref sig .tc := ⟨.hbm, 51, rfl⟩
abbrev main_c_8 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_c_9 : Ref sig .tc := ⟨.hbm, 58, rfl⟩
abbrev main_v27 : Ref sig .tc := ⟨.hbm, 59, rfl⟩
abbrev main_v28 : Ref sig .tc := ⟨.hbm, 60, rfl⟩
abbrev main_c_10 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_11 : Ref sig .tc := ⟨.hbm, 68, rfl⟩
abbrev main_v35 : Ref sig .tc := ⟨.hbm, 69, rfl⟩
abbrev main_v36 : Ref sig .tc := ⟨.hbm, 70, rfl⟩
abbrev main_c_12 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_13 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_call2_cst : Ref sig .tc := ⟨.hbm, 87, rfl⟩
abbrev main_call2_v0 : Ref sig .tc := ⟨.hbm, 88, rfl⟩
abbrev main_v51 : Ref sig .tc := ⟨.hbm, 89, rfl⟩
abbrev main_cst_14 : Ref sig .tc := ⟨.hbm, 90, rfl⟩
abbrev main_v52 : Ref sig .tc := ⟨.hbm, 91, rfl⟩
abbrev main_cst_15 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_c_16 : Ref sig .tc := ⟨.hbm, 96, rfl⟩
abbrev main_v56 : Ref sig .tc := ⟨.hbm, 97, rfl⟩
abbrev main_v57 : Ref sig .tc := ⟨.hbm, 98, rfl⟩
abbrev main_c_17 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_cst_18 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_cst_19 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_call3_cst : Ref sig .tc := ⟨.hbm, 121, rfl⟩
abbrev main_call3_v0 : Ref sig .tc := ⟨.hbm, 122, rfl⟩
abbrev main_v77 : Ref sig .tc := ⟨.hbm, 123, rfl⟩
abbrev main_v78 : Ref sig .tc := ⟨.hbm, 124, rfl⟩
abbrev main_cst_20 : Ref sig .tc := ⟨.hbm, 125, rfl⟩
abbrev main_v79 : Ref sig .tc := ⟨.hbm, 126, rfl⟩
abbrev main_cst_21 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_cst_22 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_cst_23 : Ref sig .tc := ⟨.hbm, 135, rfl⟩
abbrev main_v86 : Ref sig .tc := ⟨.hbm, 136, rfl⟩
abbrev main_v87 : Ref sig .tc := ⟨.hbm, 137, rfl⟩
abbrev main_cst_24 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_cst_25 : Ref sig .tc := ⟨.hbm, 142, rfl⟩
abbrev main_call4_v0 : Ref sig .tc := ⟨.hbm, 143, rfl⟩
abbrev main_call4_v1 : Ref sig .tc := ⟨.hbm, 144, rfl⟩
abbrev main_v91 : Ref sig .tc := ⟨.hbm, 145, rfl⟩
abbrev main_cst_26 : Ref sig .tc := ⟨.hbm, 146, rfl⟩
abbrev main_v92 : Ref sig .tc := ⟨.hbm, 147, rfl⟩
abbrev main_v93 : Ref sig .tc := ⟨.hbm, 148, rfl⟩
abbrev main_cst_27 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_cst_28 : Ref sig .tc := ⟨.hbm, 153, rfl⟩
abbrev main_call5_v0 : Ref sig .tc := ⟨.hbm, 154, rfl⟩
abbrev main_call5_v1 : Ref sig .tc := ⟨.hbm, 155, rfl⟩
abbrev main_v97 : Ref sig .tc := ⟨.hbm, 156, rfl⟩
abbrev main_c_29 : Ref sig .tc := ⟨.hbm, 157, rfl⟩
abbrev main_v98 : Ref sig .tc := ⟨.hbm, 158, rfl⟩
abbrev main_v99 : Ref sig .tc := ⟨.hbm, 159, rfl⟩
abbrev main_c_30 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_c_31 : Ref sig .tc := ⟨.hbm, 166, rfl⟩
abbrev main_v105 : Ref sig .tc := ⟨.hbm, 167, rfl⟩
abbrev main_v106 : Ref sig .tc := ⟨.hbm, 168, rfl⟩
abbrev main_c_32 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_c_33 : Ref sig .tc := ⟨.hbm, 176, rfl⟩
abbrev main_v113 : Ref sig .tc := ⟨.hbm, 177, rfl⟩
abbrev main_v114 : Ref sig .tc := ⟨.hbm, 178, rfl⟩
abbrev main_c_34 : Ref sig .tc := ⟨.hbm, 179, rfl⟩
abbrev main_v115 : Ref sig .tc := ⟨.hbm, 180, rfl⟩
abbrev main_v116 : Ref sig .tc := ⟨.hbm, 181, rfl⟩
abbrev main_v117 : Ref sig .tc := ⟨.hbm, 182, rfl⟩
abbrev main_v118 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_cst_35 : Ref sig .tc := ⟨.hbm, 188, rfl⟩
abbrev main_v123 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_call6_cst : Ref sig .tc := ⟨.hbm, 195, rfl⟩
abbrev main_call6_v0 : Ref sig .tc := ⟨.hbm, 196, rfl⟩
abbrev main_v129 : Ref sig .tc := ⟨.hbm, 197, rfl⟩
abbrev main_cst_36 : Ref sig .tc := ⟨.hbm, 198, rfl⟩
abbrev main_v130 : Ref sig .tc := ⟨.hbm, 199, rfl⟩
abbrev main_cst_37 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_c_38 : Ref sig .tc := ⟨.hbm, 204, rfl⟩
abbrev main_v134 : Ref sig .tc := ⟨.hbm, 205, rfl⟩
abbrev main_v135 : Ref sig .tc := ⟨.hbm, 206, rfl⟩
abbrev main_c_39 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_cst_40 : Ref sig .tc := ⟨.hbm, 213, rfl⟩
abbrev main_v141 : Ref sig .tc := ⟨.hbm, 214, rfl⟩
abbrev main_v142 : Ref sig .tc := ⟨.hbm, 215, rfl⟩
abbrev main_v143 : Ref sig .tc := ⟨.hbm, 216, rfl⟩
abbrev main_cst_41 : Ref sig .tc := ⟨.hbm, 217, rfl⟩
abbrev main_v144 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_call7_cst : Ref sig .tc := ⟨.hbm, 229, rfl⟩
abbrev main_call7_v0 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S200000 : S_.BroadcastsInDim S200000 (![] : Fin 0 → Fin S200000.rank)
  bcast_S800000_S800000x1_0 : S800000.BroadcastsInDim S800000x1 (![0] : Fin 1 → Fin S800000x1.rank)
  bcast_S_S100000 : S_.BroadcastsInDim S100000 (![] : Fin 0 → Fin S100000.rank)
  bcast_S800000x1_S800000x128_0_1 : S800000x1.BroadcastsInDim S800000x128 (![0, 1] : Fin 2 → Fin S800000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S200000x128 : S_.BroadcastsInDim S200000x128 (![] : Fin 0 → Fin S200000x128.rank)
  bcast_S200000_S200000x1_0 : S200000.BroadcastsInDim S200000x1 (![0] : Fin 1 → Fin S200000x1.rank)
  bcast_S200000x1_S200000x128_0_1 : S200000x1.BroadcastsInDim S200000x128 (![0, 1] : Fin 2 → Fin S200000x128.rank)
  bcast_S1x128_S200000x128_0_1 : S1x128.BroadcastsInDim S200000x128 (![0, 1] : Fin 2 → Fin S200000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S200000x128_S128x128_S200000x128_1_0_0_1_n_n_wf : DotDims.WF S200000x128 S128x128 S200000x128 [1] [0] [0] [1] [] []
  scatter_S200000_S800000x1_S800000_n_0_0_1_wf : ScatterDims.WF S200000 S800000x1 S800000 [] [0] [0] 1
  scatter_S100000_S800000x1_S800000_n_0_0_1_wf : ScatterDims.WF S100000 S800000x1 S800000 [] [0] [0] 1
  gather_S200000_S800000x1_S800000_n_0_n_n_0_1_1_wf : GatherDims.WF S200000 S800000x1 S800000 [] [0] [] [0] [] 1 ![1]
  gather_S100000_S800000x1_S800000_n_0_n_n_0_1_1_wf : GatherDims.WF S100000 S800000x1 S800000 [] [0] [] [0] [] 1 ![1]
  gather_S200000x128_S800000x1_S800000x128_1_0_n_n_0_1_1128_wf : GatherDims.WF S200000x128 S800000x1 S800000x128 [1] [0] [] [0] [] 1 ![1, 128]
  scatter_S100000x128_S800000x1_S800000x128_1_0_0_1_wf : ScatterDims.WF S100000x128 S800000x1 S800000x128 [1] [0] [0] 1
  gather_S100000x128_S800000x1_S800000x128_1_0_n_n_0_1_1128_wf : GatherDims.WF S100000x128 S800000x1 S800000x128 [1] [0] [] [0] [] 1 ![1, 128]
  scatter_S200000x128_S800000x1_S800000x128_1_0_0_1_wf : ScatterDims.WF S200000x128 S800000x1 S800000x128 [1] [0] [0] 1
  dot_S100000x128_S128x64_S100000x64_1_0_0_1_n_n_wf : DotDims.WF S100000x128 S128x64 S100000x64 [1] [0] [0] [1] [] []

variable [Facts₀]

def dot_S200000x128_S128x128_S200000x128_1_0_0_1_n_n : DotDims S200000x128 S128x128 S200000x128 where
  lhsContracting := [1]
  rhsContracting := [0]
  lhsNonContracting := [0]
  rhsNonContracting := [1]
  lhsBatch := []
  rhsBatch := []
  wf := dot_S200000x128_S128x128_S200000x128_1_0_0_1_n_n_wf
def scatter_S200000_S800000x1_S800000_n_0_0_1 : ScatterDims S200000 S800000x1 S800000 where
  updateWindowDims := []
  insertedWindowDims := [0]
  scatterDimsToOperandDims := [0]
  indexVectorDim := 1
  wf := scatter_S200000_S800000x1_S800000_n_0_0_1_wf
def scatter_S100000_S800000x1_S800000_n_0_0_1 : ScatterDims S100000 S800000x1 S800000 where
  updateWindowDims := []
  insertedWindowDims := [0]
  scatterDimsToOperandDims := [0]
  indexVectorDim := 1
  wf := scatter_S100000_S800000x1_S800000_n_0_0_1_wf
def gather_S200000_S800000x1_S800000_n_0_n_n_0_1_1 : GatherDims S200000 S800000x1 S800000 where
  offsetDims := []
  collapsedSliceDims := [0]
  operandBatchingDims := []
  startIndicesBatchingDims := []
  startIndexMap := [0]
  indexVectorDim := 1
  sliceSizes := ![1]
  wf := gather_S200000_S800000x1_S800000_n_0_n_n_0_1_1_wf
def gather_S100000_S800000x1_S800000_n_0_n_n_0_1_1 : GatherDims S100000 S800000x1 S800000 where
  offsetDims := []
  collapsedSliceDims := [0]
  operandBatchingDims := []
  startIndicesBatchingDims := []
  startIndexMap := [0]
  indexVectorDim := 1
  sliceSizes := ![1]
  wf := gather_S100000_S800000x1_S800000_n_0_n_n_0_1_1_wf
def gather_S200000x128_S800000x1_S800000x128_1_0_n_n_0_1_1128 : GatherDims S200000x128 S800000x1 S800000x128 where
  offsetDims := [1]
  collapsedSliceDims := [0]
  operandBatchingDims := []
  startIndicesBatchingDims := []
  startIndexMap := [0]
  indexVectorDim := 1
  sliceSizes := ![1, 128]
  wf := gather_S200000x128_S800000x1_S800000x128_1_0_n_n_0_1_1128_wf
def scatter_S100000x128_S800000x1_S800000x128_1_0_0_1 : ScatterDims S100000x128 S800000x1 S800000x128 where
  updateWindowDims := [1]
  insertedWindowDims := [0]
  scatterDimsToOperandDims := [0]
  indexVectorDim := 1
  wf := scatter_S100000x128_S800000x1_S800000x128_1_0_0_1_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def scatter_S200000x128_S800000x1_S800000x128_1_0_0_1 : ScatterDims S200000x128 S800000x1 S800000x128 where
  updateWindowDims := [1]
  insertedWindowDims := [0]
  scatterDimsToOperandDims := [0]
  indexVectorDim := 1
  wf := scatter_S200000x128_S800000x1_S800000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel's run with its result kept.

  The program is two kernel regions among stretches of host operations. Every weakly fair execution terminates without
  a fault; at the end each argument array is as launched, and the result array holds what the fold of the segments
  leaves in it: the host stretches' operations applied in order, each region's output array at what its write-backs
  leave. Here that fold (`W8`) is only named; the later modules compute it.
-/
import proofs.«100084_j7164005450261_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting; the result array ends at the fold's
    contents `W8`, the argument arrays as launched. -/
theorem run_result : θ_run defs (onTc (τ := τ) (main (F := F))) ⟨m, fun _ => 0, ρ⟩ (fun r => ∀ c : Dev nD,
      r.2.mem ((c.tc : Thread nD τ).loc main_v48) = W8 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v48 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c)⟩)

end Cert.KernelIdeal.Hand

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.Body.lean ====
/-
  What each kernel body computes for one block, entry by entry, at the ideal values.

  Region 0 (rows of the "ret" nodes, 4000 at a time). From a block `A` of summed neighbour features, the two scale
  columns `s₀` (the reciprocal of the clamped degree) and `s₁` (the source-side normalisation), a block `X` of the
  rows' own features, and the whole weights `Wl`, `bl`, `Wr`, `Wg`, entry `(p, q)` of the stored block is
      ( Σ_k  max( Σ_i (A[p,i]·s₀[p])·Wl[i,k]  +  Σ_i X[p,i]·Wr[i,k]  +  bl[k] , 0 ) · Wg[k,q] ) · s₁[p].
  Region 1 (rows of the "orig" nodes, 5000 at a time). From a block `B` of summed messages, the column `d` (the
  destination-side normalisation) and the whole `bg`, `Wo`, `bo`, entry `(p, q)` of the stored block is
      Σ_i  max( B[p,i]·d[p] + bg[i] , 0 ) · Wo[i,q]  +  bo[q].
  A change of float format is the identity here, and each matrix product starts from the zero accumulator.
-/
import proofs.«100084_j7164005450261_2_alg».proof.Proof.Gen.KernelIdeal.Skeleton
import proofs.«100084_j7164005450261_2_alg».proof.Proof.LibPlainMatmul
import proofs.«100084_j7164005450261_2_alg».proof.Proof.LibKeepdims
import Idealize.ShloMosaic.Lib.ValueLayout
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen
open Idealize.ShloMosaic Idealize.ShloMosaic.ValueIdx

/-! ## The layout operations and products of the two bodies, at coordinates -/

theorem mm_4000 {φ₁ φ₂ : FTy} (lhs : FVec Ideal S4000x128 φ₁) (rhs : FVec Ideal S128x128 φ₂) (p : Fin 4000) (e : Fin 128) :
    matmul dot_S4000x128_S128x128_S4000x128_1_0_0_1_n_n none lhs rhs (constant S4000x128 .f32 0x00000000#32) (ix2 p e)
      = ∑ k : Fin 128, lhs (ix2 p k) * rhs (ix2 k e) :=
  matmul_plain_zero_apply 4000 128 128 none lhs rhs p e

theorem mm_5000 {φ₁ φ₂ : FTy} (lhs : FVec Ideal S5000x128 φ₁) (rhs : FVec Ideal S128x64 φ₂) (p : Fin 5000) (e : Fin 64) :
    matmul dot_S5000x128_S128x64_S5000x64_1_0_0_1_n_n none lhs rhs (constant S5000x64 .f32 0x00000000#32) (ix2 p e)
      = ∑ k : Fin 128, lhs (ix2 p k) * rhs (ix2 k e) :=
  matmul_plain_zero_apply 5000 128 64 none lhs rhs p e

theorem col_4000 (v : FVec Ideal S4000x1 .f32) (h : S4000x1.Broadcasts S4000x128) (p : Fin 4000) (c : Fin 128) :
    broadcastTo S4000x128 v h (ix2 p c) = v (ix2 p 0) :=
  Cert.LibKeepdims.broadcastTo_a1_ab_apply v h p c 0

theorem col_5000 (v : FVec Ideal S5000x1 .f32) (h : S5000x1.Broadcasts S5000x128) (p : Fin 5000) (c : Fin 128) :
    broadcastTo S5000x128 v h (ix2 p c) = v (ix2 p 0) :=
  Cert.LibKeepdims.broadcastTo_a1_ab_apply v h p c 0

theorem row_4000x128 (v : FVec Ideal S1x128 .f32) (h : S1x128.Broadcasts S4000x128) (p : Fin 4000) (c : Fin 128) :
    broadcastTo S4000x128 v h (ix2 p c) = v (ix2 0 c) :=
  broadcastTo_1b_ab_apply v h p c

theorem row_5000x128 (v : FVec Ideal S1x128 .f32) (h : S1x128.Broadcasts S5000x128) (p : Fin 5000) (c : Fin 128) :
    broadcastTo S5000x128 v h (ix2 p c) = v (ix2 0 c) :=
  broadcastTo_1b_ab_apply v h p c

theorem row_5000x64 (v : FVec Ideal S1x64 .f32) (h : S1x64.Broadcasts S5000x64) (p : Fin 5000) (c : Fin 64) :
    broadcastTo S5000x64 v h (ix2 p c) = v (ix2 0 c) :=
  broadcastTo_1b_ab_apply v h p c

theorem unit_128 (v : FVec Ideal S128 .f32) (h : S128.ShapeCasts S1x128) (c : Fin 128) :
    shapeCast S1x128 v h (ix2 0 c) = v (ix1 c) :=
  shapeCast_a_1a_apply v h 0 c

theorem unit_64 (v : FVec Ideal S64 .f32) (h : S64.ShapeCasts S1x64) (c : Fin 64) :
    shapeCast S1x64 v h (ix2 0 c) = v (ix1 c) :=
  shapeCast_a_1a_apply v h 0 c

theorem splat_zero : (Scalar.ofBits (F := Ideal) .f32 0x00000000#32 : EReal) = 0 := Ideal.ofBits_zero_f32

/-! ## Region 0 -/

/-- Entry `(p, q)` of region 0's stored block. -/
theorem pay0_apply (v0 v2 : Vec Ideal S4000x1 .f32) (v4 v9 : Vec Ideal S4000x128 .f32)
    (v11 v13 v15 : Vec Ideal S128x128 .f32) (v17 : Vec Ideal S128 .f32) (p : Fin 4000) (q : Fin 128) :
    k0_pay1 (F := Ideal) v0 v2 v4 v9 v11 v13 v15 v17 (ix2 p q)
      = (∑ k : Fin 128, max (((∑ i : Fin 128, (v4 (ix2 p i) * v0 (ix2 p 0)) * v11 (ix2 i k))
            + ∑ i : Fin 128, v9 (ix2 p i) * v13 (ix2 i k)) + v17 (ix1 k)) 0 * v15 (ix2 k q)) * v2 (ix2 p 0) := by
  unfold k0_pay1
  simp only [mulf_apply, addf_apply, maximumf_apply, truncf_apply, broadcast_apply, mm_4000, col_4000, row_4000x128,
    unit_128, shapeCast_self, splat_zero]

/-! ## Region 1 -/

/-- Entry `(p, q)` of region 1's stored block. -/
theorem pay1_apply (v0 : Vec Ideal S5000x128 .f32) (v2 : Vec Ideal S5000x1 .f32) (v6 : Vec Ideal S128 .f32)
    (v13 : Vec Ideal S128x64 .f32) (v15 : Vec Ideal S64 .f32) (p : Fin 5000) (q : Fin 64) :
    k1_pay1 (F := Ideal) v0 v2 v6 v13 v15 (ix2 p q)
      = (∑ i : Fin 128, max (v0 (ix2 p i) * v2 (ix2 p 0) + v6 (ix1 i)) 0 * v13 (ix2 i q)) + v15 (ix1 q) := by
  unfold k1_pay1
  simp only [mulf_apply, addf_apply, maximumf_apply, truncf_apply, broadcast_apply, mm_5000, col_5000, row_5000x128,
    row_5000x64, unit_128, unit_64, shapeCast_self, splat_zero]

end Cert.KernelIdeal.Hand

end
-- ==== Proof.Region0.lean ====
/-
  Region 0's output array after all its write-backs, as one function of the arrays the region is entered with.

  The grid has 50 points; point `t` reads rows `4000·t … 4000·t + 3999` of the summed neighbour features, of the two
  scale columns and of the rows' own features, reads the weights whole, and writes back the same rows of the output.
  So row `n` of the output depends only on row `n` of those three arrays: entry `(n, c)` is
      ( Σ_k  max( Σ_a (agg[n,a]·sc[n,0])·Wl[a,k]  +  Σ_a x[n,a]·Wr[a,k]  +  bl[k] , 0 ) · Wg[k,c] ) · sc[n,1],
  and since the 50 row blocks tile the 200000 rows, that is the whole array.
-/
import proofs.«100084_j7164005450261_2_alg».proof.Proof.Gen.KernelIdeal.Frame
import proofs.«100084_j7164005450261_2_alg».proof.Proof.Body

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Entry `(n, c)` of region 0's output, from row `n` of its row-blocked inputs and the whole weights. -/
def row0 (agg : S200000x128.Idx → EReal) (sc : S200000x2.Idx → EReal) (x : S200000x128.Idx → EReal)
    (Wl : S128x128.Idx → EReal) (bl : S128.Idx → EReal) (Wr Wg : S128x128.Idx → EReal) (n : Fin 200000) (c : Fin 128) : EReal :=
  (∑ k : Fin 128, max (((∑ a : Fin 128, (agg (ix2 n a) * sc (ix2 n 0)) * Wl (ix2 a k))
      + ∑ a : Fin 128, x (ix2 n a) * Wr (ix2 a k)) + bl (ix1 k)) 0 * Wg (ix2 k c)) * sc (ix2 n 1)

/-- Region 0's output array as a function of the arrays it is entered with. -/
def G0 (agg : S200000x128.Idx → EReal) (sc : S200000x2.Idx → EReal) (x : S200000x128.Idx → EReal)
    (Wl : S128x128.Idx → EReal) (bl : S128.Idx → EReal) (Wr Wg : S128x128.Idx → EReal) : S200000x128.Idx → EReal :=
  fun i => row0 agg sc x Wl bl Wr Wg (i 0) (i 1)

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the three row-blocked inputs move with the output's row block, the weights
    stay at block zero, and the output's row block at point `t` is block `t`. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

variable (V : (c : Dev nD) → (b : Ref sig .tc) → Buf (Elt Ideal) ((c : Thread nD τ).loc b))

/-- What point `t` writes back is block `t` of `G0` of the arrays as the region finds them. -/
theorem flushed0_eq (c : Dev nD) (t : Fin cfg0.N) :
    (dat0 V c).flushed 7 t = ((cfg0.win 7).blk t).view.read (Elt Ideal)
      (G0 (V c main_v35) (V c main_v25) (V c main_arg0) (V c main_arg6) (V c main_arg7) (V c main_arg8) (V c main_arg9)) := by
  show (cfg0.win 7).cut (grid0.coords t) ((dat0 V c).after 7 t) = _
  rw [after0_7]
  unfold out0_7
  rw [View.canon_unit_zero hz2]
  simp only [View.ld_unit_zero (S := S4000x128) hz2, View.ld_unit_zero (S := S128x128) hz2, View.ld_unit_zero (S := S128) hz1]
  obtain ⟨f00, f01, f10, f11, f20, f21, f30, f31, f40, f50, f51, f60, f61, f70, f71⟩ := idx_facts0 t
  have ht : t.val < 50 := by have h := t.isLt; have hN : cfg0.N = 50 := N_0; omega
  funext j
  obtain ⟨p, q, rfl⟩ : ∃ (p : Fin 4000) (q : Fin 128), j = ix2 p q := ⟨j 0, j 1, eq_ix2 j⟩
  -- the row of the array this block row is
  let n : Fin 200000 := ⟨t.val * 4000 + p.val, by have := p.isLt; omega⟩
  have hout : ((cfg0.win 7).blk t).view.emb (ix2 p q) = ix2 n q := by
    funext a; apply Fin.ext
    match a with
    | ⟨0, _⟩ => show win0_7.index t (0 : Fin 2) * 4000 + 1 * p.val = t.val * 4000 + p.val; omega
    | ⟨1, _⟩ => show win0_7.index t (1 : Fin 2) * 128 + 1 * q.val = q.val; omega
  have r_agg : ∀ a : Fin 128, (iblk0 V c 0 t : Vec Ideal S4000x128 .f32) (ix2 p a) = V c main_v35 (ix2 n a) := fun a => by
    show V c main_v35 (((cfg0.win 0).blk t).view.emb (ix2 p a)) = _
    refine congrArg (V c main_v35) (funext fun ax => Fin.ext ?_)
    match ax with
    | ⟨0, _⟩ => show win0_0.index t (0 : Fin 2) * 4000 + 1 * p.val = t.val * 4000 + p.val; omega
    | ⟨1, _⟩ => show win0_0.index t (1 : Fin 2) * 128 + 1 * a.val = a.val; omega
  have r_x : ∀ a : Fin 128, (iblk0 V c 2 t : Vec Ideal S4000x128 .f32) (ix2 p a) = V c main_arg0 (ix2 n a) := fun a => by
    show V c main_arg0 (((cfg0.win 2).blk t).view.emb (ix2 p a)) = _
    refine congrArg (V c main_arg0) (funext fun ax => Fin.ext ?_)
    match ax with
    | ⟨0, _⟩ => show win0_2.index t (0 : Fin 2) * 4000 + 1 * p.val = t.val * 4000 + p.val; omega
    | ⟨1, _⟩ => show win0_2.index t (1 : Fin 2) * 128 + 1 * a.val = a.val; omega
  have r_sc0 : View.ld (iblk0 V c 1 t : Vec Ideal S4000x2 .f32) r0_0 (ix2 p 0) = V c main_v25 (ix2 n 0) := by
    show V c main_v25 (((cfg0.win 1).blk t).view.emb (r0_0.emb (ix2 p 0))) = _
    refine congrArg (V c main_v25) (funext fun ax => Fin.ext ?_)
    match ax with
    | ⟨0, _⟩ => show win0_1.index t (0 : Fin 2) * 4000 + 1 * (0 + 1 * p.val) = t.val * 4000 + p.val; omega
    | ⟨1, _⟩ => show win0_1.index t (1 : Fin 2) * 2 + 1 * (0 + 1 * 0) = 0; omega
  have r_sc1 : View.ld (iblk0 V c 1 t : Vec Ideal S4000x2 .f32) r0_1 (ix2 p 0) = V c main_v25 (ix2 n 1) := by
    show V c main_v25 (((cfg0.win 1).blk t).view.emb (r0_1.emb (ix2 p 0))) = _
    refine congrArg (V c main_v25) (funext fun ax => Fin.ext ?_)
    match ax with
    | ⟨0, _⟩ => show win0_1.index t (0 : Fin 2) * 4000 + 1 * (0 + 1 * p.val) = t.val * 4000 + p.val; omega
    | ⟨1, _⟩ => show win0_1.index t (1 : Fin 2) * 2 + 1 * (1 + 1 * 0) = 1; omega
  have r_Wl : ∀ (a k : Fin 128), (iblk0 V c 3 t : Vec Ideal S128x128 .f32) (ix2 a k) = V c main_arg6 (ix2 a k) := fun a k => by
    show V c main_arg6 (((cfg0.win 3).blk t).view.emb (ix2 a k)) = _
    refine congrArg (V c main_arg6) (funext fun ax => Fin.ext ?_)
    match ax with
    | ⟨0, _⟩ => show win0_3.index t (0 : Fin 2) * 128 + 1 * a.val = a.val; omega
    | ⟨1, _⟩ => show win0_3.index t (1 : Fin 2) * 128 + 1 * k.val = k.val; omega
  have r_bl : ∀ k : Fin 128, (iblk0 V c 4 t : Vec Ideal S128 .f32) (ix1 k) = V c main_arg7 (ix1 k) := fun k => by
    show V c main_arg7 (((cfg0.win 4).blk t).view.emb (ix1 k)) = _
    refine congrArg (V c main_arg7) (funext fun ax => Fin.ext ?_)
    match ax with
    | ⟨0, _⟩ => show win0_4.index t (0 : Fin 1) * 128 + 1 * k.val = k.val; omega
  have r_Wr : ∀ (a k : Fin 128), (iblk0 V c 5 t : Vec Ideal S128x128 .f32) (ix2 a k) = V c main_arg8 (ix2 a k) := fun a k => by
    show V c main_arg8 (((cfg0.win 5).blk t).view.emb (ix2 a k)) = _
    refine congrArg (V c main_arg8) (funext fun ax => Fin.ext ?_)
    match ax with
    | ⟨0, _⟩ => show win0_5.index t (0 : Fin 2) * 128 + 1 * a.val = a.val; omega
    | ⟨1, _⟩ => show win0_5.index t (1 : Fin 2) * 128 + 1 * k.val = k.val; omega
  have r_Wg : ∀ (a k : Fin 128), (iblk0 V c 6 t : Vec Ideal S128x128 .f32) (ix2 a k) = V c main_arg9 (ix2 a k) := fun a k => by
    show V c main_arg9 (((cfg0.win 6).blk t).view.emb (ix2 a k)) = _
    refine congrArg (V c main_arg9) (funext fun ax => Fin.ext ?_)
    match ax with
    | ⟨0, _⟩ => show win0_6.index t (0 : Fin 2) * 128 + 1 * a.val = a.val; omega
    | ⟨1, _⟩ => show win0_6.index t (1 : Fin 2) * 128 + 1 * k.val = k.val; omega
  show k0_pay1 (F := Ideal) _ _ _ _ _ _ _ _ (ix2 p q) = G0 _ _ _ _ _ _ _ (((cfg0.win 7).blk t).view.emb (ix2 p q))
  rw [hout]
  refine (pay0_apply _ _ _ _ _ _ _ _ p q).trans ?_
  show _ = row0 _ _ _ _ _ _ _ n q
  unfold row0
  simp only [r_agg, r_x, r_sc0, r_sc1, r_Wl, r_bl, r_Wr, r_Wg]

/-- An index of the array is in point `t`'s block iff each coordinate is in the block's range on its axis. -/
theorem mem_blk0 (t : Fin cfg0.N) (i : S200000x128.Idx) :
    i ∈ ((cfg0.win 7).blk t).view.set ↔ ∀ a : Fin 2, win0_7.index t a * S4000x128.size a ≤ (i a).val
      ∧ (i a).val < win0_7.index t a * S4000x128.size a + S4000x128.size a := by
  show i ∈ ((View.whole main_v36).slice (win0_7.rect t)).set ↔ _
  rw [View.set_slice_whole, Rect.mem_set_unit]
  exact Iff.rfl

/-- Every row of the array is in some point's block: row `n` in block `n / 4000`. -/
theorem cover0 (i : S200000x128.Idx) :
    ∃ t : Fin cfg0.N, (cfg0.win 7).flush t = true ∧ i ∈ ((cfg0.win 7).blk t).view.set := by
  have hi0 : (i 0).val < 200000 := (i 0).isLt
  have hi1 : (i 1).val < 128 := (i 1).isLt
  have hN : cfg0.N = 50 := N_0
  let t : Fin cfg0.N := ⟨(i 0).val / 4000, by rw [hN]; omega⟩
  obtain ⟨-, -, -, -, -, -, -, -, -, -, -, -, -, f70, f71⟩ := idx_facts0 t
  refine ⟨t, flush0_7 t, ?_⟩
  rw [mem_blk0]
  intro a
  have htv : t.val = (i 0).val / 4000 := rfl
  match a with
  | ⟨0, _⟩ =>
    show win0_7.index t (0 : Fin 2) * 4000 ≤ (i 0).val ∧ (i 0).val < win0_7.index t (0 : Fin 2) * 4000 + 4000
    omega
  | ⟨1, _⟩ =>
    show win0_7.index t (1 : Fin 2) * 128 ≤ (i 1).val ∧ (i 1).val < win0_7.index t (1 : Fin 2) * 128 + 128
    omega

/-- Region 0's output array after the region: `G0` of the arrays the region is entered with. -/
theorem final0 (c : Dev nD) :
    (dat0 V c).arrAt 7 cfg0.N
      = G0 (V c main_v35) (V c main_v25) (V c main_arg0) (V c main_arg6) (V c main_arg7) (V c main_arg8) (V c main_arg9) :=
  (dat0 V c).arrAt_eq_of_cover 7 _ (fun t _ => flushed0_eq V c t) cover0

end Cert.KernelIdeal.Hand

end
-- ==== Proof.Region1.lean ====
/-
  Region 1's output array after all its write-backs, as one function of the arrays the region is entered with.

  The grid has 20 points; point `t` reads rows `5000·t … 5000·t + 4999` of the summed messages and of the normalisation
  column, reads the bias and the output weights whole, and writes back the same rows of the result. Entry `(n, c)` is
      Σ_i  max( B[n,i]·d[n] + bg[i] , 0 ) · Wo[i,c]  +  bo[c],
  and since the 20 row blocks tile the 100000 rows, that is the whole array.
-/
import proofs.«100084_j7164005450261_2_alg».proof.Proof.Gen.KernelIdeal.Frame
import proofs.«100084_j7164005450261_2_alg».proof.Proof.Body

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Entry `(n, c)` of region 1's output, from row `n` of its row-blocked inputs and the whole bias and weights. -/
def row1 (B : S100000x128.Idx → EReal) (d : S100000x1.Idx → EReal) (bg : S128.Idx → EReal)
    (Wo : S128x64.Idx → EReal) (bo : S64.Idx → EReal) (n : Fin 100000) (c : Fin 64) : EReal :=
  (∑ i : Fin 128, max (B (ix2 n i) * d (ix2 n 0) + bg (ix1 i)) 0 * Wo (ix2 i c)) + bo (ix1 c)

/-- Region 1's output array as a function of the arrays it is entered with. -/
def G1 (B : S100000x128.Idx → EReal) (d : S100000x1.Idx → EReal) (bg : S128.Idx → EReal)
    (Wo : S128x64.Idx → EReal) (bo : S64.Idx → EReal) : S100000x64.Idx → EReal :=
  fun i => row1 B d bg Wo bo (i 0) (i 1)

theorem hz2' : (![0, 0] : Fin 2 → Nat) = fun _ => 0 := funext fun a => by fin_cases a <;> rfl
theorem hz1' : (![0] : Fin 1 → Nat) = fun _ => 0 := funext fun a => by fin_cases a; rfl

/-- The printed index maps over the grid: the two row-blocked inputs move with the output's row block, the bias and
    weights stay at block zero, and the output's row block at point `t` is block `t`. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- What point `t` writes back is block `t` of `G1` of the arrays as the region finds them. -/
theorem flushed1_eq (c : Dev nD) (t : Fin cfg1.N) :
    (dat1 V c).flushed 5 t = ((cfg1.win 5).blk t).view.read (Elt Ideal)
      (G1 (V c main_v46) (V c main_v47) (V c main_arg10) (V c main_arg14) (V c main_arg15)) := by
  show (cfg1.win 5).cut (grid1.coords t) ((dat1 V c).after 5 t) = _
  rw [after1_5]
  unfold out1_5
  rw [View.canon_unit_zero hz2']
  simp only [View.ld_unit_zero (S := S5000x128) hz2', View.ld_unit_zero (S := S5000x1) hz2',
    View.ld_unit_zero (S := S128x64) hz2', View.ld_unit_zero (S := S128) hz1', View.ld_unit_zero (S := S64) hz1']
  obtain ⟨f00, f01, f10, f11, f20, f30, f31, f40, f50, f51⟩ := idx_facts1 t
  have ht : t.val < 20 := by have h := t.isLt; have hN : cfg1.N = 20 := N_1; omega
  funext j
  obtain ⟨p, q, rfl⟩ : ∃ (p : Fin 5000) (q : Fin 64), j = ix2 p q := ⟨j 0, j 1, eq_ix2 j⟩
  let n : Fin 100000 := ⟨t.val * 5000 + p.val, by have := p.isLt; omega⟩
  have hout : ((cfg1.win 5).blk t).view.emb (ix2 p q) = ix2 n q := by
    funext a; apply Fin.ext
    match a with
    | ⟨0, _⟩ => show win1_5.index t (0 : Fin 2) * 5000 + 1 * p.val = t.val * 5000 + p.val; omega
    | ⟨1, _⟩ => show win1_5.index t (1 : Fin 2) * 64 + 1 * q.val = q.val; omega
  have r_B : ∀ a : Fin 128, (iblk1 V c 0 t : Vec Ideal S5000x128 .f32) (ix2 p a) = V c main_v46 (ix2 n a) := fun a => by
    show V c main_v46 (((cfg1.win 0).blk t).view.emb (ix2 p a)) = _
    refine congrArg (V c main_v46) (funext fun ax => Fin.ext ?_)
    match ax with
    | ⟨0, _⟩ => show win1_0.index t (0 : Fin 2) * 5000 + 1 * p.val = t.val * 5000 + p.val; omega
    | ⟨1, _⟩ => show win1_0.index t (1 : Fin 2) * 128 + 1 * a.val = a.val; omega
  have r_d : (iblk1 V c 1 t : Vec Ideal S5000x1 .f32) (ix2 p 0) = V c main_v47 (ix2 n 0) := by
    show V c main_v47 (((cfg1.win 1).blk t).view.emb (ix2 p 0)) = _
    refine congrArg (V c main_v47) (funext fun ax => Fin.ext ?_)
    match ax with
    | ⟨0, _⟩ => show win1_1.index t (0 : Fin 2) * 5000 + 1 * p.val = t.val * 5000 + p.val; omega
    | ⟨1, _⟩ => show win1_1.index t (1 : Fin 2) * 1 + 1 * 0 = 0; omega
  have r_bg : ∀ k : Fin 128, (iblk1 V c 2 t : Vec Ideal S128 .f32) (ix1 k) = V c main_arg10 (ix1 k) := fun k => by
    show V c main_arg10 (((cfg1.win 2).blk t).view.emb (ix1 k)) = _
    refine congrArg (V c main_arg10) (funext fun ax => Fin.ext ?_)
    match ax with
    | ⟨0, _⟩ => show win1_2.index t (0 : Fin 1) * 128 + 1 * k.val = k.val; omega
  have r_Wo : ∀ (a : Fin 128) (k : Fin 64), (iblk1 V c 3 t : Vec Ideal S128x64 .f32) (ix2 a k) = V c main_arg14 (ix2 a k) := fun a k => by
    show V c main_arg14 (((cfg1.win 3).blk t).view.emb (ix2 a k)) = _
    refine congrArg (V c main_arg14) (funext fun ax => Fin.ext ?_)
    match ax with
    | ⟨0, _⟩ => show win1_3.index t (0 : Fin 2) * 128 + 1 * a.val = a.val; omega
    | ⟨1, _⟩ => show win1_3.index t (1 : Fin 2) * 64 + 1 * k.val = k.val; omega
  have r_bo : ∀ k : Fin 64, (iblk1 V c 4 t : Vec Ideal S64 .f32) (ix1 k) = V c main_arg15 (ix1 k) := fun k => by
    show V c main_arg15 (((cfg1.win 4).blk t).view.emb (ix1 k)) = _
    refine congrArg (V c main_arg15) (funext fun ax => Fin.ext ?_)
    match ax with
    | ⟨0, _⟩ => show win1_4.index t (0 : Fin 1) * 64 + 1 * k.val = k.val; omega
  show k1_pay1 (F := Ideal) _ _ _ _ _ (ix2 p q) = G1 _ _ _ _ _ (((cfg1.win 5).blk t).view.emb (ix2 p q))
  rw [hout]
  refine (pay1_apply _ _ _ _ _ p q).trans ?_
  show _ = row1 _ _ _ _ _ n q
  unfold row1
  simp only [r_B, r_d, r_bg, r_Wo, r_bo]

/-- An index of the array is in point `t`'s block iff each coordinate is in the block's range on its axis. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v48).slice (win1_5.rect t)).set ↔ _
  rw [View.set_slice_whole, Rect.mem_set_unit]
  exact Iff.rfl

/-- Every row of the array is in some point's block: row `n` in block `n / 5000`. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 20 := N_1
  let t : Fin cfg1.N := ⟨(i 0).val / 5000, by rw [hN]; omega⟩
  obtain ⟨-, -, -, -, -, -, -, -, f50, f51⟩ := idx_facts1 t
  refine ⟨t, flush1_5 t, ?_⟩
  rw [mem_blk1]
  intro a
  have htv : t.val = (i 0).val / 5000 := rfl
  match a with
  | ⟨0, _⟩ =>
    show win1_5.index t (0 : Fin 2) * 5000 ≤ (i 0).val ∧ (i 0).val < win1_5.index t (0 : Fin 2) * 5000 + 5000
    omega
  | ⟨1, _⟩ =>
    show win1_5.index t (1 : Fin 2) * 64 ≤ (i 1).val ∧ (i 1).val < win1_5.index t (1 : Fin 2) * 64 + 64
    omega

/-- Region 1's output array after the region: `G1` of the arrays the region is entered with. -/
theorem final1 (c : Dev nD) :
    (dat1 V c).arrAt 5 cfg1.N
      = G1 (V c main_v46) (V c main_v47) (V c main_arg10) (V c main_arg14) (V c main_arg15) :=
  (dat1 V c).arrAt_eq_of_cover 5 _ (fun t _ => flushed1_eq V c t) cover1

end Cert.KernelIdeal.Hand

end
-- ==== Proof.HostK.lean ====
/-
  The idealized kernel program's result array as one function of its argument arrays.

  Around the two regions the host computes, from the edge index arrays `a2` ("ret" end) and `a3` ("orig" end):
  the in-degrees `degR`, `degO` (a scatter-add of ones); the reciprocal `1 / max(degR, 1)` and the two symmetric
  normalisations `invS`, `invD` (`rsqrt(max(deg, 1))` where `deg > 0`, else `0`); the two scale columns side by side;
  the first aggregation `agg1` (rows of `a1` picked by `a3`, summed by `a2`); and, between the regions, the second
  aggregation `agg2` (rows of region 0's output picked by `a2`, summed by `a3`). The result is region 1's function of
  `agg2` of region 0's function of `agg1`.
-/
import proofs.«100084_j7164005450261_2_alg».proof.Proof.Gen.KernelIdeal.Frame
import proofs.«100084_j7164005450261_2_alg».proof.Proof.Region0
import proofs.«100084_j7164005450261_2_alg».proof.Proof.Region1

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Idealize.ShloMosaic.StableHlo

/-! ## The host's values -/

/-- An index array as the column a scatter reads: the raw indices. -/
def rawCol (a : IVec S800000 32) : IVec S800000x1 32 := broadcastInDim S800000x1 ![0] bcast_S800000_S800000x1_0 a

/-- An index array as the column a gather reads: negative indices wrapped around by the extent `N` first. -/
def idxCol (N : BitVec 32) (a : IVec S800000 32) : IVec S800000x1 32 :=
  broadcastInDim S800000x1 ![0] bcast_S800000_S800000x1_0
    (select (cmpi .slt a (broadcastInDim S800000 ![] bcast_S_S800000 (constantI S_ 32 0#32)))
      (addi a (broadcastInDim S800000 ![] bcast_S_S800000 (constantI S_ 32 N))) a)

def degR (a2 : IVec S800000 32) : FVec Ideal S200000 .f32 :=
  Host.scatterAdd scatter_S200000_S800000x1_S800000_n_0_0_1
    (broadcastInDim S200000 ![] bcast_S_S200000 (constant (F := Ideal) S_ .f32 0x00000000#32)) (rawCol a2)
    (broadcastInDim S800000 ![] bcast_S_S800000 (constant (F := Ideal) S_ .f32 0x3F800000#32))

def degO (a3 : IVec S800000 32) : FVec Ideal S100000 .f32 :=
  Host.scatterAdd scatter_S100000_S800000x1_S800000_n_0_0_1
    (broadcastInDim S100000 ![] bcast_S_S100000 (constant (F := Ideal) S_ .f32 0x00000000#32)) (rawCol a3)
    (broadcastInDim S800000 ![] bcast_S_S800000 (constant (F := Ideal) S_ .f32 0x3F800000#32))

def recipR (a2 : IVec S800000 32) : FVec Ideal S200000 .f32 :=
  Host.divf (broadcastInDim S200000 ![] bcast_S_S200000 (constant (F := Ideal) S_ .f32 0x3F800000#32))
    (maximumf (degR a2) (broadcastInDim S200000 ![] bcast_S_S200000 (constant (F := Ideal) S_ .f32 0x3F800000#32)))

def invS (a2 : IVec S800000 32) : FVec Ideal S200000 .f32 :=
  select (cmpf .ogt (degR a2) (broadcastInDim S200000 ![] bcast_S_S200000 (constant (F := Ideal) S_ .f32 0x00000000#32)))
    (Host.rsqrt (maximumf (degR a2) (broadcastInDim S200000 ![] bcast_S_S200000 (constant (F := Ideal) S_ .f32 0x3F800000#32))))
    (broadcastInDim S200000 ![] bcast_S_S200000 (constant (F := Ideal) S_ .f32 0x00000000#32))

def invD (a3 : IVec S800000 32) : FVec Ideal S100000 .f32 :=
  select (cmpf .ogt (degO a3) (broadcastInDim S100000 ![] bcast_S_S100000 (constant (F := Ideal) S_ .f32 0x00000000#32)))
    (Host.rsqrt (maximumf (degO a3) (broadcastInDim S100000 ![] bcast_S_S100000 (constant (F := Ideal) S_ .f32 0x3F800000#32))))
    (broadcastInDim S100000 ![] bcast_S_S100000 (constant (F := Ideal) S_ .f32 0x00000000#32))

/-- The two scale columns of region 0 side by side: the reciprocal, then the source-side normalisation. -/
def scale1 (a2 : IVec S800000 32) : FVec Ideal S200000x2 .f32 :=
  concatenate S200000x2 1 [⟨S200000x1, broadcastInDim S200000x1 ![0] bcast_S200000_S200000x1_0 (recipR a2)⟩,
    ⟨S200000x1, broadcastInDim S200000x1 ![0] bcast_S200000_S200000x1_0 (invS a2)⟩] concatenates_S200000x1_S200000x1_S200000x2_d1

/-- The first aggregation: for each "ret" row, the sum of the `a1` rows its edges pick. -/
def agg1 (a1 : FVec Ideal S100000x128 .f32) (a2 a3 : IVec S800000 32) : FVec Ideal S200000x128 .f32 :=
  Host.scatterAdd scatter_S200000x128_S800000x1_S800000x128_1_0_0_1
    (broadcastInDim S200000x128 ![] bcast_S_S200000x128 (constant (F := Ideal) S_ .f32 0x00000000#32)) (rawCol a2)
    (Host.gather gather_S100000x128_S800000x1_S800000x128_1_0_n_n_0_1_1128 a1 (idxCol 100000#32 a3))

/-- The second aggregation: for each "orig" row, the sum of the rows of `K` its edges pick. -/
def agg2 (K : FVec Ideal S200000x128 .f32) (a2 a3 : IVec S800000 32) : FVec Ideal S100000x128 .f32 :=
  Host.scatterAdd scatter_S100000x128_S800000x1_S800000x128_1_0_0_1
    (broadcastInDim S100000x128 ![] bcast_S_S100000x128 (constant (F := Ideal) S_ .f32 0x00000000#32)) (rawCol a3)
    (Host.gather gather_S200000x128_S800000x1_S800000x128_1_0_n_n_0_1_1128 K (idxCol 200000#32 a2))

/-- The second aggregation is this scatter-add (its definition, restated so that it can be rewritten with). -/
theorem agg2_def (K : FVec Ideal S200000x128 .f32) (a2 a3 : IVec S800000 32) :
    agg2 K a2 a3 = Host.scatterAdd scatter_S100000x128_S800000x1_S800000x128_1_0_0_1
      (broadcastInDim S100000x128 ![] bcast_S_S100000x128 (constant (F := Ideal) S_ .f32 0x00000000#32)) (rawCol a3)
      (Host.gather gather_S200000x128_S800000x1_S800000x128_1_0_n_n_0_1_1128 K (idxCol 200000#32 a2)) := rfl

/-- The zero operand of the second aggregation reads `0` everywhere. -/
theorem zeros_agg2_apply (i : S100000x128.Idx) :
    broadcastInDim S100000x128 ![] bcast_S_S100000x128 (constant (F := Ideal) S_ .f32 0x00000000#32) i = 0 :=
  Ideal.ofBits_zero_f32

/-- The destination-side normalisation as the column region 1 reads. -/
def invDcol (a3 : IVec S800000 32) : FVec Ideal S100000x1 .f32 :=
  broadcastInDim S100000x1 ![0] bcast_S100000_S100000x1_0 (invD a3)

/-- The whole program's result as a function of the argument arrays. -/
def kernelResult (a0 : FVec Ideal S200000x128 .f32) (a1 : FVec Ideal S100000x128 .f32) (a2 a3 : IVec S800000 32)
    (a6 : FVec Ideal S128x128 .f32) (a7 : FVec Ideal S128 .f32) (a8 a9 : FVec Ideal S128x128 .f32)
    (a10 : FVec Ideal S128 .f32) (a14 : FVec Ideal S128x64 .f32) (a15 : FVec Ideal S64 .f32) : FVec Ideal S100000x64 .f32 :=
  G1 (agg2 (G0 (agg1 a1 a2 a3) (scale1 a2) a0 a6 a7 a8 a9) a2 a3) (invDcol a3) a10 a14 a15

/-! ## The fold before region 0, as one line of operations -/

theorem after_append {τ : Topo} {sig : RefSig} {Val : EltTy → Type} (l₁ l₂ : List (HloOp τ sig Val)) (X : Valuation τ sig Val) :
    StableHlo.after (l₁ ++ l₂) X = StableHlo.after l₂ (StableHlo.after l₁ X) := by
  induction l₁ generalizing X with
  | nil => rfl
  | cons op l ih => exact ih _

variable (m : (ℓ : Loc nD τ sig) → Buf (Elt Ideal) ℓ) (ρ : Dev nD → PrngReg)

/-- The five stretches of host operations before region 0, end to end. -/
abbrev pre0 : List (HloOp τ sig (Elt Ideal)) := hostOps0 ++ (hostOps0_1 ++ (hostOps0_2 ++ (hostOps0_3 ++ hostOps0_4)))

theorem W5_eq (c : Dev nD) : W5 m ρ c = StableHlo.after pre0 (W0 m ρ c) := by
  unfold pre0
  rw [after_append, after_append, after_append, after_append]

/-- Reads a buffer after the stretches before region 0: the operations' results, outermost first. -/
macro "read_pre0" : tactic =>
  `(tactic| (rw [W5_eq]
             simp only [pre0, hostOps0, hostOps0_1, hostOps0_2, hostOps0_3, hostOps0_4, List.cons_append, List.nil_append]
             after_results_simp))

theorem W5_v35 (c : Dev nD) : W5 m ρ c (Proc.devRef .tc main_v35)
    = agg1 (m ((c : Thread nD τ).loc main_arg1)) (m ((c : Thread nD τ).loc main_arg2)) (m ((c : Thread nD τ).loc main_arg3)) := by
  read_pre0 <;> rfl

/-! ### The two normalisations, one stretch at a time

The stretches that compute them hold outlined selections whose operations carry a change of buffer type; read over an
arbitrary valuation `X` each stretch's result is a small term over `X`'s buffers, and the stretches compose. -/

/-- Reads a buffer after one stretch from any contents. -/
macro "read_stretch" ops:ident : tactic => `(tactic| (simp only [$ops:ident]; after_results_simp))

section Stretches
variable (X : Valuation τ sig (Elt Ideal))

theorem s0_v6 : StableHlo.after hostOps0 X (Proc.devRef .tc main_v6) = degO (X (Proc.devRef .tc main_arg3)) := by
  read_stretch hostOps0 <;> rfl
theorem s0_v10 : StableHlo.after hostOps0 X (Proc.devRef .tc main_v10) = recipR (X (Proc.devRef .tc main_arg2)) := by
  read_stretch hostOps0 <;> rfl
theorem s0_v12 : StableHlo.after hostOps0 X (Proc.devRef .tc main_v12)
    = cmpf .ogt (degR (X (Proc.devRef .tc main_arg2))) (broadcastInDim S200000 ![] bcast_S_S200000 (constant (F := Ideal) S_ .f32 0x00000000#32)) := by
  read_stretch hostOps0 <;> rfl
theorem s0_v15 : StableHlo.after hostOps0 X (Proc.devRef .tc main_v15)
    = Host.rsqrt (maximumf (degR (X (Proc.devRef .tc main_arg2))) (broadcastInDim S200000 ![] bcast_S_S200000 (constant (F := Ideal) S_ .f32 0x3F800000#32))) := by
  read_stretch hostOps0 <;> rfl
theorem s0_cst6 : StableHlo.after hostOps0 X (Proc.devRef .tc main_cst_6) = constant (F := Ideal) S_ .f32 0x00000000#32 := by
  read_stretch hostOps0 <;> rfl

theorem s1_v16 : StableHlo.after hostOps0_1 X (Proc.devRef .tc main_v16)
    = select (X (Proc.devRef .tc main_v12)) (X (Proc.devRef .tc main_v15))
        (broadcastInDim S200000 ![] bcast_S_S200000 (X (Proc.devRef .tc main_cst_6))) := by
  read_stretch hostOps0_1 <;> rfl
theorem s1_v10 : StableHlo.after hostOps0_1 X (Proc.devRef .tc main_v10) = X (Proc.devRef .tc main_v10) := by
  read_stretch hostOps0_1 <;> rfl
theorem s1_v6 : StableHlo.after hostOps0_1 X (Proc.devRef .tc main_v6) = X (Proc.devRef .tc main_v6) := by
  read_stretch hostOps0_1 <;> rfl

theorem s2_v18 : StableHlo.after hostOps0_2 X (Proc.devRef .tc main_v18)
    = cmpf .ogt (X (Proc.devRef .tc main_v6)) (broadcastInDim S100000 ![] bcast_S_S100000 (constant (F := Ideal) S_ .f32 0x00000000#32)) := by
  read_stretch hostOps0_2 <;> rfl
theorem s2_v21 : StableHlo.after hostOps0_2 X (Proc.devRef .tc main_v21)
    = Host.rsqrt (maximumf (X (Proc.devRef .tc main_v6)) (broadcastInDim S100000 ![] bcast_S_S100000 (constant (F := Ideal) S_ .f32 0x3F800000#32))) := by
  read_stretch hostOps0_2 <;> rfl
theorem s2_cst9 : StableHlo.after hostOps0_2 X (Proc.devRef .tc main_cst_9) = constant (F := Ideal) S_ .f32 0x00000000#32 := by
  read_stretch hostOps0_2 <;> rfl
theorem s2_v10 : StableHlo.after hostOps0_2 X (Proc.devRef .tc main_v10) = X (Proc.devRef .tc main_v10) := by
  read_stretch hostOps0_2 <;> rfl
theorem s2_v16 : StableHlo.after hostOps0_2 X (Proc.devRef .tc main_v16) = X (Proc.devRef .tc main_v16) := by
  read_stretch hostOps0_2 <;> rfl

theorem s3_v22 : StableHlo.after hostOps0_3 X (Proc.devRef .tc main_v22)
    = select (X (Proc.devRef .tc main_v18)) (X (Proc.devRef .tc main_v21))
        (broadcastInDim S100000 ![] bcast_S_S100000 (X (Proc.devRef .tc main_cst_9))) := by
  read_stretch hostOps0_3 <;> rfl
theorem s3_v10 : StableHlo.after hostOps0_3 X (Proc.devRef .tc main_v10) = X (Proc.devRef .tc main_v10) := by
  read_stretch hostOps0_3 <;> rfl
theorem s3_v16 : StableHlo.after hostOps0_3 X (Proc.devRef .tc main_v16) = X (Proc.devRef .tc main_v16) := by
  read_stretch hostOps0_3 <;> rfl

theorem s4_v25 : StableHlo.after hostOps0_4 X (Proc.devRef .tc main_v25)
    = concatenate S200000x2 1 [⟨S200000x1, broadcastInDim S200000x1 ![0] bcast_S200000_S200000x1_0 (X (Proc.devRef .tc main_v10))⟩,
        ⟨S200000x1, broadcastInDim S200000x1 ![0] bcast_S200000_S200000x1_0 (X (Proc.devRef .tc main_v16))⟩]
        concatenates_S200000x1_S200000x1_S200000x2_d1 := by
  read_stretch hostOps0_4 <;> rfl
theorem s4_v22 : StableHlo.after hostOps0_4 X (Proc.devRef .tc main_v22) = X (Proc.devRef .tc main_v22) := by
  read_stretch hostOps0_4 <;> rfl

end Stretches

theorem W5_v22 (c : Dev nD) : W5 m ρ c (Proc.devRef .tc main_v22) = invD (m ((c : Thread nD τ).loc main_arg3)) := by
  show StableHlo.after hostOps0_4 (StableHlo.after hostOps0_3 (StableHlo.after hostOps0_2 (StableHlo.after hostOps0_1
    (StableHlo.after hostOps0 (W0 m ρ c))))) (Proc.devRef .tc main_v22) = _
  rw [s4_v22, s3_v22, s2_v18, s2_v21, s2_cst9, s1_v6, s0_v6]
  show invD (W0 m ρ c (Proc.devRef .tc main_arg3)) = _
  rfl

theorem W5_v25 (c : Dev nD) : W5 m ρ c (Proc.devRef .tc main_v25) = scale1 (m ((c : Thread nD τ).loc main_arg2)) := by
  show StableHlo.after hostOps0_4 (StableHlo.after hostOps0_3 (StableHlo.after hostOps0_2 (StableHlo.after hostOps0_1
    (StableHlo.after hostOps0 (W0 m ρ c))))) (Proc.devRef .tc main_v25) = _
  rw [s4_v25, s3_v10, s2_v10, s1_v10, s0_v10, s3_v16, s2_v16, s1_v16, s0_v12, s0_v15, s0_cst6]
  show scale1 (W0 m ρ c (Proc.devRef .tc main_arg2)) = _
  rfl
theorem W5_arg0 (c : Dev nD) : W5 m ρ c (Proc.devRef .tc main_arg0) = m ((c : Thread nD τ).loc main_arg0) := by read_pre0 <;> rfl
theorem W5_arg2 (c : Dev nD) : W5 m ρ c (Proc.devRef .tc main_arg2) = m ((c : Thread nD τ).loc main_arg2) := by read_pre0 <;> rfl
theorem W5_arg3 (c : Dev nD) : W5 m ρ c (Proc.devRef .tc main_arg3) = m ((c : Thread nD τ).loc main_arg3) := by read_pre0 <;> rfl
theorem W5_arg6 (c : Dev nD) : W5 m ρ c (Proc.devRef .tc main_arg6) = m ((c : Thread nD τ).loc main_arg6) := by read_pre0 <;> rfl
theorem W5_arg7 (c : Dev nD) : W5 m ρ c (Proc.devRef .tc main_arg7) = m ((c : Thread nD τ).loc main_arg7) := by read_pre0 <;> rfl
theorem W5_arg8 (c : Dev nD) : W5 m ρ c (Proc.devRef .tc main_arg8) = m ((c : Thread nD τ).loc main_arg8) := by read_pre0 <;> rfl
theorem W5_arg9 (c : Dev nD) : W5 m ρ c (Proc.devRef .tc main_arg9) = m ((c : Thread nD τ).loc main_arg9) := by read_pre0 <;> rfl
theorem W5_arg10 (c : Dev nD) : W5 m ρ c (Proc.devRef .tc main_arg10) = m ((c : Thread nD τ).loc main_arg10) := by read_pre0 <;> rfl
theorem W5_arg14 (c : Dev nD) : W5 m ρ c (Proc.devRef .tc main_arg14) = m ((c : Thread nD τ).loc main_arg14) := by read_pre0 <;> rfl
theorem W5_arg15 (c : Dev nD) : W5 m ρ c (Proc.devRef .tc main_arg15) = m ((c : Thread nD τ).loc main_arg15) := by read_pre0 <;> rfl

/-! ## Across region 0 -/

/-- Region 0's output array at its exit. -/
theorem W6_v36 (c : Dev nD) : W6 m ρ c (Proc.devRef .tc main_v36)
    = G0 (agg1 (m ((c : Thread nD τ).loc main_arg1)) (m ((c : Thread nD τ).loc main_arg2)) (m ((c : Thread nD τ).loc main_arg3)))
        (scale1 (m ((c : Thread nD τ).loc main_arg2))) (m ((c : Thread nD τ).loc main_arg0)) (m ((c : Thread nD τ).loc main_arg6))
        (m ((c : Thread nD τ).loc main_arg7)) (m ((c : Thread nD τ).loc main_arg8)) (m ((c : Thread nD τ).loc main_arg9)) := by
  refine ((W6_arr m ρ c 7).trans (final0 (V5 m ρ) c)).trans ?_
  show G0 (W5 m ρ c (Proc.devRef .tc main_v35)) (W5 m ρ c (Proc.devRef .tc main_v25)) (W5 m ρ c (Proc.devRef .tc main_arg0))
    (W5 m ρ c (Proc.devRef .tc main_arg6)) (W5 m ρ c (Proc.devRef .tc main_arg7)) (W5 m ρ c (Proc.devRef .tc main_arg8))
    (W5 m ρ c (Proc.devRef .tc main_arg9)) = _
  rw [W5_v35, W5_v25, W5_arg0, W5_arg6, W5_arg7, W5_arg8, W5_arg9]

theorem W6_v22 (c : Dev nD) : W6 m ρ c (Proc.devRef .tc main_v22) = invD (m ((c : Thread nD τ).loc main_arg3)) :=
  (W6_of_ne m ρ c main_v22 (by decide)).trans (W5_v22 m ρ c)
theorem W6_arg2 (c : Dev nD) : W6 m ρ c (Proc.devRef .tc main_arg2) = m ((c : Thread nD τ).loc main_arg2) :=
  (W6_of_ne m ρ c main_arg2 (by decide)).trans (W5_arg2 m ρ c)
theorem W6_arg3 (c : Dev nD) : W6 m ρ c (Proc.devRef .tc main_arg3) = m ((c : Thread nD τ).loc main_arg3) :=
  (W6_of_ne m ρ c main_arg3 (by decide)).trans (W5_arg3 m ρ c)
theorem W6_arg10 (c : Dev nD) : W6 m ρ c (Proc.devRef .tc main_arg10) = m ((c : Thread nD τ).loc main_arg10) :=
  (W6_of_ne m ρ c main_arg10 (by decide)).trans (W5_arg10 m ρ c)
theorem W6_arg14 (c : Dev nD) : W6 m ρ c (Proc.devRef .tc main_arg14) = m ((c : Thread nD τ).loc main_arg14) :=
  (W6_of_ne m ρ c main_arg14 (by decide)).trans (W5_arg14 m ρ c)
theorem W6_arg15 (c : Dev nD) : W6 m ρ c (Proc.devRef .tc main_arg15) = m ((c : Thread nD τ).loc main_arg15) :=
  (W6_of_ne m ρ c main_arg15 (by decide)).trans (W5_arg15 m ρ c)

/-! ## The stretch between the regions -/

/-- Reads a buffer after the stretch between the regions, from any contents `X` before it. -/
macro "read_mid" : tactic =>
  `(tactic| (simp only [hostOps1]
             after_results_simp))

theorem mid_v46 (X : Valuation τ sig (Elt Ideal)) : StableHlo.after hostOps1 X (Proc.devRef .tc main_v46)
    = agg2 (X (Proc.devRef .tc main_v36)) (X (Proc.devRef .tc main_arg2)) (X (Proc.devRef .tc main_arg3)) := by
  read_mid <;> rfl
theorem mid_v47 (X : Valuation τ sig (Elt Ideal)) : StableHlo.after hostOps1 X (Proc.devRef .tc main_v47)
    = broadcastInDim S100000x1 ![0] bcast_S100000_S100000x1_0 (X (Proc.devRef .tc main_v22)) := by
  read_mid <;> rfl
theorem mid_arg10 (X : Valuation τ sig (Elt Ideal)) : StableHlo.after hostOps1 X (Proc.devRef .tc main_arg10) = X (Proc.devRef .tc main_arg10) := by
  read_mid <;> rfl
theorem mid_arg14 (X : Valuation τ sig (Elt Ideal)) : StableHlo.after hostOps1 X (Proc.devRef .tc main_arg14) = X (Proc.devRef .tc main_arg14) := by
  read_mid <;> rfl
theorem mid_arg15 (X : Valuation τ sig (Elt Ideal)) : StableHlo.after hostOps1 X (Proc.devRef .tc main_arg15) = X (Proc.devRef .tc main_arg15) := by
  read_mid <;> rfl

/-! ## The result -/

/-- The result array at the end of the fold is `kernelResult` of the launch contents of the arguments. -/
theorem W8_v48 (c : Dev nD) : W8 m ρ c (Proc.devRef .tc main_v48)
    = kernelResult (m ((c : Thread nD τ).loc main_arg0)) (m ((c : Thread nD τ).loc main_arg1)) (m ((c : Thread nD τ).loc main_arg2))
        (m ((c : Thread nD τ).loc main_arg3)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg14)) (m ((c : Thread nD τ).loc main_arg15)) := by
  refine ((W8_arr m ρ c 5).trans (final1 (V7 m ρ) c)).trans ?_
  show G1 (StableHlo.after hostOps1 (W6 m ρ c) (Proc.devRef .tc main_v46)) (StableHlo.after hostOps1 (W6 m ρ c) (Proc.devRef .tc main_v47))
    (StableHlo.after hostOps1 (W6 m ρ c) (Proc.devRef .tc main_arg10)) (StableHlo.after hostOps1 (W6 m ρ c) (Proc.devRef .tc main_arg14))
    (StableHlo.after hostOps1 (W6 m ρ c) (Proc.devRef .tc main_arg15)) = _
  rw [mid_v46, mid_v47, mid_arg10, mid_arg14, mid_arg15, W6_v36, W6_v22, W6_arg2, W6_arg3, W6_arg10, W6_arg14, W6_arg15]
  rfl

end Cert.KernelIdeal.Hand

end
-- ==== Proof.LibERealScale.lean ====
/-
  Scaling by a nonnegative finite factor on the extended reals, and two quantities that are such factors.

  On the extended reals multiplication does not distribute over addition in general (the sum of +∞ and −∞ is −∞, and
  a negative or infinite factor turns that around), but it does for a factor `x` with `0 ≤ x` and `x ≠ ⊤`: a
  nonnegative real. So a finite sum times such a factor is the sum of the products, whatever the summands are.
  The reciprocal square root of a positive extended real is such a factor (a positive real, or `0` at `+∞`), and so
  is a value that is either that or `0`. A quotient by a nonzero divisor is the product with the divisor's reciprocal.
-/
import Idealize.ShloMosaic.PureOps.Ideal
import Idealize.ShloMosaic.PureOps.Ideal.Laws

namespace Cert.LibERealScale

open Idealize.ShloMosaic

/-- A finite sum times a nonnegative finite factor is the sum of the products. -/
theorem sum_mul_of_nonneg_ne_top {ι : Type} (s : Finset ι) (f : ι → EReal) {x : EReal} (h0 : 0 ≤ x) (ht : x ≠ ⊤) :
    (∑ j ∈ s, f j) * x = ∑ j ∈ s, f j * x := by
  classical
  induction s using Finset.induction_on with
  | empty => rw [Finset.sum_empty, Finset.sum_empty, zero_mul]
  | insert a s ha ih =>
    rw [Finset.sum_insert ha, Finset.sum_insert ha, EReal.right_distrib_of_nonneg_of_ne_top h0 ht, ih]

/-- The f32 word of `1.0` denotes `1`. -/
theorem ofBits_one_f32 : Ideal.ofBits .f32 0x3F800000#32 = 1 := by
  simp [Ideal.ofBits, Ideal.ieee]
  rw [← EReal.coe_mul, ← EReal.coe_one]
  exact congrArg _ (by norm_num)

/-- The larger of anything and `1` is positive. -/
theorem max_one_pos (d : EReal) : 0 < max d (Ideal.ofBits .f32 0x3F800000#32) := by
  rw [ofBits_one_f32]
  exact lt_of_lt_of_le zero_lt_one (le_max_right d 1)

/-- The reciprocal square root of a positive extended real is a nonnegative finite number. -/
theorem rsqrt_nonneg_ne_top {y : EReal} (hy : 0 < y) : 0 ≤ Ideal.rsqrt y ∧ Ideal.rsqrt y ≠ ⊤ := by
  induction y using EReal.rec with
  | bot => exact absurd hy (not_lt.mpr bot_le)
  | top => rw [Ideal.rsqrt_top]; exact ⟨le_rfl, EReal.zero_ne_top⟩
  | coe r =>
    have hr : 0 < r := by exact_mod_cast hy
    rw [Ideal.rsqrt_coe, if_neg (not_lt.mpr hr.le), if_neg hr.ne']
    exact ⟨by exact_mod_cast inv_nonneg.mpr (Real.sqrt_nonneg r), EReal.coe_ne_top _⟩

/-- A value that is the reciprocal square root of `max d 1` where a flag is set and `0` elsewhere is a
    nonnegative finite number, whatever `d` and the flag are. -/
theorem select_rsqrt_nonneg_ne_top (b : BitVec 1) (d : EReal) :
    0 ≤ Scalar.select b (Ideal.rsqrt (max d (Ideal.ofBits .f32 0x3F800000#32))) (Ideal.ofBits .f32 0x00000000#32)
      ∧ Scalar.select b (Ideal.rsqrt (max d (Ideal.ofBits .f32 0x3F800000#32))) (Ideal.ofBits .f32 0x00000000#32) ≠ ⊤ := by
  unfold Scalar.select
  split
  · exact rsqrt_nonneg_ne_top (max_one_pos d)
  · rw [Ideal.ofBits_zero_f32]; exact ⟨le_rfl, EReal.zero_ne_top⟩

/-- A quotient by a nonzero divisor is the product with the divisor's reciprocal `1 / y`. -/
theorem div_eq_mul_one_div (x : EReal) {y : EReal} (hy : y ≠ 0) : Ideal.div x y = x * Ideal.div 1 y := by
  unfold Ideal.div
  rw [if_neg hy, if_neg hy, one_mul]

end Cert.LibERealScale
-- ==== Proof.LibRowIndexOps.lean ====
/-
  Rows picked and rows accumulated by an integer index column, read at coordinates.

  `x[idx]` for a matrix `x : [N, C]` (or a vector `x : [N]`) and an index column `idx : [E, 1]` is a gather whose
  result row `e` is row `g(e)` of `x`, where `g(e)` is the start index `idx[e, 0]` read signed and clamped into
  `[0, N − 1]`. The matrix and the vector forms clamp the same number the same way, so a vector gathered beside a
  matrix reads the same row.

  A row scatter of updates `u : [E, C]` into an operand `[N, C]` by the index column adds update row `e` onto operand
  row `idx[e, 0]`, read signed and NOT clamped: an update that lands on operand element `i` has its raw index equal
  to `i`'s row. Only that direction is stated: it is what a sum over the landing updates needs.
-/
import Idealize.ShloMosaic.PureOps.ShapeOps
import Idealize.ShloMosaic.PureOps.Dims
import Idealize.ShloMosaic.Lib.ValueIdx

noncomputable section

namespace Cert.LibRowIndexOps

open Idealize.ShloMosaic Idealize.ShloMosaic.ValueIdx

variable {α : Type}

/-! ## The matrix gather -/

/-- The dimension numbers of `x[idx]` for `x : [N, C]`, `idx : [E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N − 1]`. -/
def pick {w : Nat} (N : Nat) (hN : 0 < N) (b : BitVec w) : Fin N := ⟨min b.toInt.toNat (N - 1), by omega⟩

/-- Result element `(e, c)` of the matrix gather is `x` at row `pick idx[e, 0]`, column `c`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (pick N hN (idx (ix2 e 0))) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    unfold GatherDims.start
    rw [dif_neg (fun h : (1 : Fin 2) ∈ (rowGatherDims N E C wf).startIndexMap => absurd (congrArg Fin.val (List.mem_singleton.mp h)) Nat.one_ne_zero)]
    simp only [Nat.add_zero, Nat.zero_add]
    rfl

/-! ## The vector gather -/

/-- The dimension numbers of `x[idx]` for `x : [N]`, `idx : [E, 1]`, result `[E]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` of the vector gather is `x` at `pick idx[e, 0]`: the row the matrix gather reads. -/
theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (pick N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Indices that are already in range -/

/-- A start index whose signed value is `k < N` picks row `k`: the clamp does nothing. -/
theorem pick_of_toInt {w N : Nat} (hN : 0 < N) (x : BitVec w) (k : Fin N) (h : x.toInt = (k.val : Int)) :
    pick N hN x = k := by
  refine Fin.ext ?_
  show min x.toInt.toNat (N - 1) = k.val
  rw [h, Int.toNat_natCast]
  have := k.isLt
  omega

/-- The wrap-around of negative indices (`x < 0 ? x + n : x`) keeps an index that is not negative. -/
theorem wrapNeg_of_nonneg {w : Nat} (x n : BitVec w) (hx : 0 ≤ x.toInt) :
    Scalar.select (IntOp.cmpi .slt x 0#w) (IntOp.addi x n) x = x := by
  have hs : x.slt 0#w = false := by
    rw [BitVec.slt_eq_decide, BitVec.toInt_zero]
    exact decide_eq_false (not_lt.mpr hx)
  unfold IntOp.cmpi Scalar.select
  simp only [hs]
  rw [if_neg (by decide)]

/-! ## The row scatter -/

/-- The dimension numbers of a scatter of update rows `[E, C]` into `[N, C]` by an index column `[E, 1]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element that lands on operand element `i` has its raw index, read signed, equal to `i`'s row. -/
theorem rowScatter_lands {N E C w : Nat}
    (wf : ScatterDims.WF ⟨2, ![N, C]⟩ ⟨2, ![E, 1]⟩ ⟨2, ![E, C]⟩ [1] [0] [0] 1)
    (idx : IVec ⟨2, ![E, 1]⟩ w) (j : (⟨2, ![E, C]⟩ : Shape).Idx) (i : (⟨2, ![N, C]⟩ : Shape).Idx)
    (h : (rowScatterDims N E C wf).resultIdx? j idx = some i) :
    (idx (ix2 (j 0) 0)).toInt = ((i 0).val : Int) := by
  unfold ScatterDims.resultIdx? at h
  split at h
  · rename_i hr
    have hi := congrArg (fun f => (f (0 : Fin 2)).val) (Option.some.inj h)
    have h0 := (hr (0 : Fin 2)).1
    have hw : (rowScatterDims N E C wf).window j (0 : Fin 2) = 0 := by
      unfold ScatterDims.window
      rw [dif_neg (fun h : (0 : Fin 2) ∈ (rowScatterDims N E C wf).sKept => by
        have h2 := (List.mem_filter.mp h).2
        simp at h2)]
    have hs : (rowScatterDims N E C wf).start j idx (0 : Fin 2) = (idx (ix2 (j 0) 0)).toInt := by
      unfold ScatterDims.start
      rw [dif_pos (show (0 : Fin 2) ∈ (rowScatterDims N E C wf).scatterDimsToOperandDims from List.mem_singleton.mpr rfl)]
      have hsi : (rowScatterDims N E C wf).siIdx j ⟨List.idxOf (0 : Fin 2) (rowScatterDims N E C wf).scatterDimsToOperandDims,
          List.idxOf_lt_length_iff.2 (List.mem_singleton.mpr rfl)⟩ = ix2 (j 0) 0 := by
        funext b; refine Fin.ext ?_
        match b with
        | ⟨0, _⟩ => rfl
        | ⟨1, _⟩ => rfl
      rw [hsi]
      rfl
    rw [hw, hs] at h0
    simp only [hw, hs, Nat.cast_zero, add_zero] at hi
    omega
  · exact absurd h (by simp)

end Cert.LibRowIndexOps

end
-- ==== Proof.KernRows.lean ====
/-
  The idealized kernel program's host values, read at coordinates.

  • Column 0 of the scale array at row `n` is the reciprocal `1 / max(degR[n], 1)`; column 1 is `invS[n]`.
  • The normalisation column region 1 reads holds `invD[k]` at row `k`.
  • `invD[k]` is a nonnegative finite number, whatever the degrees are: it is `0`, or the reciprocal square root of
    something that is at least `1`.
  • The message column `(e, c)` picked out of region 0's output is that output at the row edge `e`'s index picks.
  • The raw index column at edge `e` is the edge's index.
-/
import proofs.«100084_j7164005450261_2_alg».proof.Proof.HostK
import proofs.«100084_j7164005450261_2_alg».proof.Proof.LibERealScale
import proofs.«100084_j7164005450261_2_alg».proof.Proof.LibRowIndexOps
import Idealize.ShloMosaic.Lib.Pipeline.Value

noncomputable section

namespace Cert.KernelIdeal.Hand

open Cert.KernelIdeal Cert.KernelIdeal.Gen
open Idealize.ShloMosaic Idealize.ShloMosaic.ValueIdx
open Cert.LibRowIndexOps Cert.LibERealScale

/-- A vector `[200000]` as a column `[200000, 1]`, read at row `n`. -/
theorem col_200000 (v : FVec Ideal S200000 .f32) (n : Fin 200000) :
    broadcastInDim S200000x1 ![0] bcast_S200000_S200000x1_0 v (ix2 n 0) = v (ix1 n) :=
  broadcastInDim_apply _ bcast_S200000_S200000x1_0 v (ix2 n 0) (ix1 n) (fun a => match a with
    | ⟨0, _⟩ => by show n.val = if (200000 : Nat) = 1 then 0 else n.val; rw [if_neg (by decide)])

/-- A vector `[100000]` as a column `[100000, 1]`, read at row `k`. -/
theorem col_100000 (v : FVec Ideal S100000 .f32) (k : Fin 100000) :
    broadcastInDim S100000x1 ![0] bcast_S100000_S100000x1_0 v (ix2 k 0) = v (ix1 k) :=
  broadcastInDim_apply _ bcast_S100000_S100000x1_0 v (ix2 k 0) (ix1 k) (fun a => match a with
    | ⟨0, _⟩ => by show k.val = if (100000 : Nat) = 1 then 0 else k.val; rw [if_neg (by decide)])

/-! ## Operations read at an index, over arbitrary operands -/

section Generic
variable {s : Shape} {φ : FTy}

theorem hostDivf_apply (x y : FVec Ideal s φ) (i : s.Idx) : Host.divf x y i = Ideal.div (x i) (y i) := rfl
theorem hostRsqrt_apply (x : FVec Ideal s φ) (i : s.Idx) : Host.rsqrt x i = Ideal.rsqrt (x i) := rfl

end Generic

/-- A constant spread over `[200000]` reads as its word. -/
theorem splat_200000 (w : BitVec 32) (i : S200000.Idx) :
    broadcastInDim S200000 ![] bcast_S_S200000 (constant (F := Ideal) S_ .f32 w) i = Ideal.ofBits .f32 w := rfl
/-- A constant spread over `[100000]` reads as its word. -/
theorem splat_100000 (w : BitVec 32) (i : S100000.Idx) :
    broadcastInDim S100000 ![] bcast_S_S100000 (constant (F := Ideal) S_ .f32 w) i = Ideal.ofBits .f32 w := rfl

/-- Two columns side by side: column 0 is the first. -/
theorem concat_col0 (A B : FVec Ideal S200000x1 .f32) (n : Fin 200000) :
    concatenate S200000x2 1 [⟨S200000x1, A⟩, ⟨S200000x1, B⟩] concatenates_S200000x1_S200000x1_S200000x2_d1 (ix2 n 0)
      = A (ix2 n 0) :=
  concatenate_pair_apply_left (t := S200000x2) (s₁ := S200000x1) (s₂ := S200000x1) (1 : Fin 2) A B
    concatenates_S200000x1_S200000x1_S200000x2_d1 (ix2 n (0 : Fin 2)) rfl (ix2 n (0 : Fin 1))
    (fun b => match b with
      | ⟨0, _⟩ => rfl
      | ⟨1, _⟩ => rfl)

/-- Two columns side by side: column 1 is the second. -/
theorem concat_col1 (A B : FVec Ideal S200000x1 .f32) (n : Fin 200000) :
    concatenate S200000x2 1 [⟨S200000x1, A⟩, ⟨S200000x1, B⟩] concatenates_S200000x1_S200000x1_S200000x2_d1 (ix2 n 1)
      = B (ix2 n 0) :=
  concatenate_pair_apply_right (t := S200000x2) (s₁ := S200000x1) (s₂ := S200000x1) (1 : Fin 2) A B
    concatenates_S200000x1_S200000x1_S200000x2_d1 (ix2 n (1 : Fin 2)) rfl rfl (ix2 n (0 : Fin 1))
    (fun b hb => match b with
      | ⟨0, _⟩ => rfl
      | ⟨1, _⟩ => absurd rfl hb)
    (by rfl)

/-! ## The host values of the kernel program at a row -/

/-- The reciprocal of the clamped degree at row `n`. -/
theorem recipR_apply (a2 : IVec S800000 32) (n : Fin 200000) :
    recipR a2 (ix1 n) = Ideal.div (Ideal.ofBits .f32 0x3F800000#32) (max (degR a2 (ix1 n)) (Ideal.ofBits .f32 0x3F800000#32)) := by
  unfold recipR
  rw [hostDivf_apply, maximumf_apply, splat_200000]

/-- Column 0 of the scale array: the reciprocal of the clamped degree. -/
theorem scale1_col0 (a2 : IVec S800000 32) (n : Fin 200000) :
    scale1 a2 (ix2 n 0) = Ideal.div (Ideal.ofBits .f32 0x3F800000#32) (max (degR a2 (ix1 n)) (Ideal.ofBits .f32 0x3F800000#32)) := by
  unfold scale1
  rw [concat_col0, col_200000, recipR_apply]

/-- Column 1 of the scale array: the source-side normalisation. -/
theorem scale1_col1 (a2 : IVec S800000 32) (n : Fin 200000) : scale1 a2 (ix2 n 1) = invS a2 (ix1 n) := by
  unfold scale1
  rw [concat_col1, col_200000]

/-- The normalisation column at row `k`. -/
theorem invDcol_apply (a3 : IVec S800000 32) (k : Fin 100000) : invDcol a3 (ix2 k 0) = invD a3 (ix1 k) :=
  col_100000 _ k

/-- The destination-side normalisation at row `k`: where the degree is positive, the reciprocal square root of the
    clamped degree; elsewhere `0`. -/
theorem invD_apply (a3 : IVec S800000 32) (k : Fin 100000) :
    invD a3 (ix1 k) = Scalar.select (FloatOps.cmpf .ogt (degO a3 (ix1 k)) (Ideal.ofBits .f32 0x00000000#32))
      (Ideal.rsqrt (max (degO a3 (ix1 k)) (Ideal.ofBits .f32 0x3F800000#32))) (Ideal.ofBits .f32 0x00000000#32) := by
  unfold invD
  rw [select_apply, cmpf_apply, hostRsqrt_apply, maximumf_apply, splat_100000, splat_100000]

/-- The destination-side normalisation is a nonnegative finite number at every row. -/
theorem invD_nonneg_ne_top (a3 : IVec S800000 32) (k : Fin 100000) : 0 ≤ invD a3 (ix1 k) ∧ invD a3 (ix1 k) ≠ ⊤ := by
  rw [invD_apply]
  generalize degO a3 (ix1 k) = d
  exact select_rsqrt_nonneg_ne_top _ d

/-- The clamped degree is not zero. -/
theorem maxdeg_ne_zero (d : EReal) : max d (Ideal.ofBits .f32 0x3F800000#32) ≠ 0 := (max_one_pos d).ne'

/-- A row of a `[200000, 128]` array picked by edge `e`'s wrapped "ret" index. -/
theorem gatherK_apply (K : FVec Ideal S200000x128 .f32) (a2 : IVec S800000 32) (e : Fin 800000) (c : Fin 128) :
    Host.gather gather_S200000x128_S800000x1_S800000x128_1_0_n_n_0_1_1128 K (idxCol 200000#32 a2) (ix2 e c)
      = K (ix2 (pick 200000 (by decide) (idxCol 200000#32 a2 (ix2 e 0))) c) :=
  gather_rows_apply (N := 200000) (E := 800000) (C := 128) (by decide) gather_S200000x128_S800000x1_S800000x128_1_0_n_n_0_1_1128.wf K _ e c

/-- The raw index column at edge `e`. -/
theorem rawCol_apply (a : IVec S800000 32) (e : Fin 800000) : rawCol a (ix2 e 0) = a (ix1 e) :=
  broadcastInDim_apply _ bcast_S800000_S800000x1_0 a (ix2 e 0) (ix1 e) (fun b => match b with
    | ⟨0, _⟩ => by show e.val = if (800000 : Nat) = 1 then 0 else e.val; rw [if_neg (by decide)])

end Cert.KernelIdeal.Hand

end
-- ==== Proof.LibPlainDot.lean ====
/-
  The host's plain matrix product and a matrix transpose, read at an index, at the ideal values.
  A `dot_general` with the dimension numbers of an ordinary product — an [A, K] matrix times a [K, B] matrix,
  contracting the left operand's columns with the right operand's rows, no batch axis — is, at (p, e), the sum over k
  of L(p, k) · R(k, e), a sum indexed by `Fin K` with both operands read at indices written by coordinates. The
  transpose of an [A, B] matrix read at (b, a) is the matrix at (a, b).
-/
import Idealize.ShloMosaic.PureOps.Ideal.Laws
import Idealize.ShloMosaic.Lib.ValueIdx
import Idealize.ShloMosaic.Lib.Pipeline.Value
import proofs.«100084_j7164005450261_2_alg».proof.Proof.LibPlainMatmul

noncomputable section

namespace Cert.LibPlainDot

open Idealize.ShloMosaic Idealize.ShloMosaic.ValueIdx

/-- A plain [A, K] × [K, B] `dot_general` on the host, read at (p, e): Σ_k L(p, k) · R(k, e). -/
theorem dotGeneral_plain_apply (A K B : Nat) {φ₁ φ₂ : FTy} (prec : Option ContractPrecision) (sched : HostSchedule)
    (lhs : FVec Ideal ⟨2, ![A, K]⟩ φ₁) (rhs : FVec Ideal ⟨2, ![K, B]⟩ φ₂) (p : Fin A) (e : Fin B) :
    FloatOps.dotGeneral (DotDims.plain A K B) prec sched lhs rhs (ix2 p e) = ∑ k : Fin K, lhs (ix2 p k) * rhs (ix2 k e) := by
  rw [Ideal.dotGeneral_apply, ← Equiv.sum_comp (contrEquiv1 (DotDims.plain A K B) K rfl rfl).symm]
  refine Finset.sum_congr rfl fun k _ => ?_
  rw [plain_lhsIdx, plain_rhsIdx]

/-- The transpose of an [A, B] matrix, read at (b, a), is the matrix at (a, b). -/
theorem transpose_swap_apply {α : Type} (A B : Nat) (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun d => match d with
    | ⟨0, _⟩ => rfl
    | ⟨1, _⟩ => rfl)

end Cert.LibPlainDot

end
-- ==== Proof.RefRows.lean ====
/-
  The reference program's stages on the way to its result, read at coordinates, at the ideal values.

  • The result at `(k, c)` is  Σ_i max(out[k,i] + bg[i], 0) · Wo[i,c] + bo[c],  `out` the scatter-add of the messages.
  • A message `(e, c)` (edge `e`, column `c`) is  h[r, c] · (invS[r] · invD[o]),  with `r`, `o` the rows the edge's two
    indices pick after negative indices are wrapped around: the gathered hidden row times the edge's norm.
  • The hidden layer at `(n, c)` is  Σ_k max( (Σ_a (agg[n,a] / max(deg[n], 1))·Wl[a,k] + bl[k]) + Σ_a x[n,a]·Wr[a,k] , 0 ) · Wg[k,c].
  • The index column the destination normalisation is gathered by holds, at edge `e`, the edge's index wrapped
    around; the index column the scatter reads holds the raw index.
-/
import proofs.«100084_j7164005450261_2_alg».proof.Proof.RefReadP
import proofs.«100084_j7164005450261_2_alg».proof.Proof.LibPlainDot
import proofs.«100084_j7164005450261_2_alg».proof.Proof.LibRowIndexOps

noncomputable section

namespace Cert.ReferenceIdeal.Hand

open Cert.ReferenceIdeal Cert.ReferenceIdeal.Gen Cert.ReferenceIdeal.Read
open Idealize.ShloMosaic Idealize.ShloMosaic.ValueIdx
open Cert.LibRowIndexOps

variable (x0 : FVec Ideal S200000x128 .f32) (x1 : FVec Ideal S100000x128 .f32) (x2 x3 : IVec S800000 32)
  (x6 : FVec Ideal S128x128 .f32) (x7 : FVec Ideal S128 .f32) (x8 x9 : FVec Ideal S128x128 .f32)
  (x10 : FVec Ideal S128 .f32) (x14 : FVec Ideal S128x64 .f32) (x15 : FVec Ideal S64 .f32)

/-! ## The result over the scattered messages -/

theorem ref_v159 (k : Fin 100000) (c : Fin 64) :
    val_main_v159 (F := Ideal) x0 x1 x2 x3 x6 x7 x8 x9 x10 x14 x15 (ix2 k c)
      = (∑ i : Fin 128, max (val_main_v125 (F := Ideal) x0 x1 x2 x3 x6 x7 x8 x9 (ix2 k i) + x10 (ix1 i)) 0 * x14 (ix2 i c))
        + x15 (ix1 c) := by
  have h158 : val_main_v158 (F := Ideal) x15 (ix2 k c) = x15 (ix1 c) := by
    rw [val_main_v158_apply, val_main_v157_apply]
    exact congrArg x15 (funext fun a => Fin.ext (by match a with | ⟨0, _⟩ => rfl))
  have h127 : ∀ i : Fin 128, val_main_v127 (F := Ideal) x10 (ix2 k i) = x10 (ix1 i) := fun i => by
    rw [val_main_v127_apply, val_main_v126_apply]
    exact congrArg x10 (funext fun a => Fin.ext (by match a with | ⟨0, _⟩ => rfl))
  have hz : ∀ i : Fin 128, val_main_call6_v0 (F := Ideal) (ix2 k i) = 0 := fun i => by
    rw [val_main_call6_v0_apply, val_main_call6_cst_apply]; exact Ideal.ofBits_zero_f32
  rw [val_main_v159_apply, h158, Ideal.addf_def]
  refine congrArg (· + x15 (ix1 c)) ?_
  unfold val_main_v156
  refine (Cert.LibPlainDot.dotGeneral_plain_apply 100000 128 64 none .single _ _ k c).trans ?_
  refine Finset.sum_congr rfl fun i _ => ?_
  rw [val_main_v129_apply, val_main_v128_apply, h127, hz, Ideal.maximumf_def, Ideal.addf_def]

/-! ## One scattered message -/

theorem ref_v122 (e : Fin 800000) (c : Fin 128) :
    val_main_v122 (F := Ideal) x0 x1 x2 x3 x6 x7 x8 x9 (ix2 e c)
      = val_main_v78 (F := Ideal) x0 x1 x2 x3 x6 x7 x8 x9 (ix2 (pick 200000 (by decide) (val_main_v118 (F := Ideal) x2 (ix2 e 0))) c)
        * (val_main_v91 (F := Ideal) x2 (ix1 (pick 200000 (by decide) (val_main_v103 (F := Ideal) x2 (ix2 e 0))))
          * val_main_v97 (F := Ideal) x3 (ix1 (pick 100000 (by decide) (val_main_v110 (F := Ideal) x3 (ix2 e 0))))) := by
  have hidx : idx_main_v120 (idx_main_v121 (ix2 e c)) = ix1 e :=
    funext fun a => Fin.ext (by match a with | ⟨0, _⟩ => rfl)
  rw [val_main_v122_apply, Ideal.mulf_def, val_main_v121_apply, val_main_v120_apply, hidx, val_main_v112_apply, Ideal.mulf_def]
  have h119 : val_main_v119 (F := Ideal) x0 x1 x2 x3 x6 x7 x8 x9 (ix2 e c)
      = val_main_v78 (F := Ideal) x0 x1 x2 x3 x6 x7 x8 x9 (ix2 (pick 200000 (by decide) (val_main_v118 (F := Ideal) x2 (ix2 e 0))) c) := by
    unfold val_main_v119
    exact gather_rows_apply (N := 200000) (E := 800000) (C := 128) (by decide) gather_S200000x128_S800000x1_S800000x128_1_0_n_n_0_1_1128.wf _ _ e c
  have h104 : val_main_v104 (F := Ideal) x2 (ix1 e)
      = val_main_v91 (F := Ideal) x2 (ix1 (pick 200000 (by decide) (val_main_v103 (F := Ideal) x2 (ix2 e 0)))) := by
    unfold val_main_v104
    exact gather_vec_apply (N := 200000) (E := 800000) (by decide) gather_S200000_S800000x1_S800000_n_0_n_n_0_1_1.wf _ _ e
  have h111 : val_main_v111 (F := Ideal) x3 (ix1 e)
      = val_main_v97 (F := Ideal) x3 (ix1 (pick 100000 (by decide) (val_main_v110 (F := Ideal) x3 (ix2 e 0)))) := by
    unfold val_main_v111
    exact gather_vec_apply (N := 100000) (E := 800000) (by decide) gather_S100000_S800000x1_S800000_n_0_n_n_0_1_1.wf _ _ e
  rw [h119, h104, h111]

/-! ## The hidden layer -/

theorem ref_v78 (n : Fin 200000) (c : Fin 128) :
    val_main_v78 (F := Ideal) x0 x1 x2 x3 x6 x7 x8 x9 (ix2 n c)
      = ∑ k : Fin 128, max (((∑ a : Fin 128, Ideal.div (val_main_v65 (F := Ideal) x1 x2 x3 (ix2 n a))
              (max (val_main_v55 (F := Ideal) x2 (ix1 n)) (Ideal.ofBits .f32 0x3F800000#32)) * x6 (ix2 a k)) + x7 (ix1 k))
            + ∑ a : Fin 128, x0 (ix2 n a) * x8 (ix2 a k)) 0 * x9 (ix2 k c) := by
  have h73 : ∀ k : Fin 128, val_main_v73 (F := Ideal) x7 (ix2 n k) = x7 (ix1 k) := fun k => by
    rw [val_main_v73_apply, val_main_v72_apply]
    exact congrArg x7 (funext fun a => Fin.ext (by match a with | ⟨0, _⟩ => rfl))
  have hz : ∀ k : Fin 128, val_main_call3_v0 (F := Ideal) (ix2 n k) = 0 := fun k => by
    rw [val_main_call3_v0_apply, val_main_call3_cst_apply]; exact Ideal.ofBits_zero_f32
  have h69 : ∀ a : Fin 128, val_main_v69 (F := Ideal) x2 (ix2 n a)
      = max (val_main_v55 (F := Ideal) x2 (ix1 n)) (Ideal.ofBits .f32 0x3F800000#32) := fun a => by
    have hidx : idx_main_v68 (idx_main_v69 (ix2 n a)) = ix1 n :=
      funext fun b => Fin.ext (by match b with | ⟨0, _⟩ => rfl)
    rw [val_main_v69_apply, val_main_v68_apply, hidx, val_main_v67_apply, Ideal.maximumf_def, val_main_v66_apply,
      val_main_cst_19_apply, Ideal.ofBits_def]
  unfold val_main_v78
  refine (Cert.LibPlainDot.dotGeneral_plain_apply 200000 128 128 none .single _ _ n c).trans ?_
  refine Finset.sum_congr rfl fun k _ => ?_
  refine congrArg (· * x9 (ix2 k c)) ?_
  rw [val_main_v77_apply, Ideal.maximumf_def, hz, val_main_v76_apply, Ideal.addf_def, val_main_v74_apply, Ideal.addf_def, h73]
  have h71 : val_main_v71 (F := Ideal) x1 x2 x3 x6 (ix2 n k)
      = ∑ a : Fin 128, Ideal.div (val_main_v65 (F := Ideal) x1 x2 x3 (ix2 n a))
          (max (val_main_v55 (F := Ideal) x2 (ix1 n)) (Ideal.ofBits .f32 0x3F800000#32)) * x6 (ix2 a k) := by
    unfold val_main_v71
    refine (Cert.LibPlainDot.dotGeneral_plain_apply 200000 128 128 none .single _ _ n k).trans ?_
    refine Finset.sum_congr rfl fun a _ => ?_
    rw [val_main_v70_apply, Ideal.hostDivf_def, h69]
  have h75 : val_main_v75 (F := Ideal) x0 x8 (ix2 n k) = ∑ a : Fin 128, x0 (ix2 n a) * x8 (ix2 a k) := by
    unfold val_main_v75
    exact Cert.LibPlainDot.dotGeneral_plain_apply 200000 128 128 none .single _ _ n k
  rw [h71, h75]

/-! ## The message sum is a scatter-add -/

/-- The reference's message sum is this scatter-add (its definition, restated so that it can be rewritten with). -/
theorem v125_def : (val_main_v125 (F := Ideal) x0 x1 x2 x3 x6 x7 x8 x9 : FVec Ideal S100000x128 .f32)
    = Host.scatterAdd (F := Ideal) (φ := .f32) scatter_S100000x128_S800000x1_S800000x128_1_0_0_1 (val_main_v123 (F := Ideal))
        (val_main_v124 (F := Ideal) x3) (val_main_v122 (F := Ideal) x0 x1 x2 x3 x6 x7 x8 x9) := rfl

/-- Its zero operand reads `0` everywhere. -/
theorem v123_apply_zero (i : S100000x128.Idx) : val_main_v123 (F := Ideal) i = 0 := by
  rw [val_main_v123_apply, val_main_cst_35_apply]; exact Ideal.ofBits_zero_f32

/-! ## The two index columns of the destination end, at an edge -/

theorem ref_v124 (e : Fin 800000) : val_main_v124 (F := Ideal) x3 (ix2 e 0) = x3 (ix1 e) := by
  rw [val_main_v124_apply]
  exact congrArg x3 (funext fun a => Fin.ext (by match a with | ⟨0, _⟩ => rfl))

theorem ref_v110 (e : Fin 800000) : val_main_v110 (F := Ideal) x3 (ix2 e 0)
    = Scalar.select (IntOp.cmpi .slt (x3 (ix1 e)) 0#32) (IntOp.addi (x3 (ix1 e)) 100000#32) (x3 (ix1 e)) := by
  have hidx : idx_main_v110 (ix2 e 0) = ix1 e := funext fun a => Fin.ext (by match a with | ⟨0, _⟩ => rfl)
  rw [val_main_v110_apply, hidx, val_main_v109_apply, val_main_v106_apply, val_main_v108_apply, val_main_v105_apply,
    val_main_v107_apply, val_main_c_31_apply, val_main_c_32_apply]

end Cert.ReferenceIdeal.Hand

end
-- ==== Proof.LibScatterFactor.lean ====
/-
  A factor common to the updates that land on one element comes out of a row scatter-add.

  At the ideal values a scatter-add into a zero operand holds, at element `i`, the sum of the update elements that
  land on `i`. If `r` is a nonnegative finite number and every update that lands on `i` is `r` times the corresponding
  element of another update array, then the scattered sum of the one is `r` times the scattered sum of the other —
  whatever the summands are (infinite ones included), because multiplication by such an `r` distributes over the
  extended reals' addition. Which updates land on `i` is the same for both arrays: it depends on the indices only.
-/
import proofs.«100084_j7164005450261_2_alg».proof.Proof.LibERealScale
import proofs.«100084_j7164005450261_2_alg».proof.Proof.LibRowIndexOps

noncomputable section

namespace Cert.LibScatterFactor

open Idealize.ShloMosaic Idealize.ShloMosaic.ValueIdx Cert.LibRowIndexOps Cert.LibERealScale

/-- The scattered sum of `u` at `i`, times `r`, is the scattered sum of `u'` at `i`, when `u' = u · r` on the updates that
    land on `i`, both operands are `0` at `i`, and `r` is a nonnegative finite number. -/
theorem rowScatter_factor {N E C w : Nat}
    (wf : ScatterDims.WF ⟨2, ![N, C]⟩ ⟨2, ![E, 1]⟩ ⟨2, ![E, C]⟩ [1] [0] [0] 1)
    (z z' : (⟨2, ![N, C]⟩ : Shape).Idx → EReal) (idx : IVec ⟨2, ![E, 1]⟩ w)
    (u u' : (⟨2, ![E, C]⟩ : Shape).Idx → EReal) (i : (⟨2, ![N, C]⟩ : Shape).Idx) (r : EReal)
    (hz : z i = 0) (hz' : z' i = 0) (h0 : 0 ≤ r) (ht : r ≠ ⊤)
    (h : ∀ j, (rowScatterDims N E C wf).resultIdx? j idx = some i → u j * r = u' j) :
    Ideal.hostScatterAdd (rowScatterDims N E C wf) z idx u i * r
      = Ideal.hostScatterAdd (rowScatterDims N E C wf) z' idx u' i := by
  unfold Ideal.hostScatterAdd
  rw [hz, hz', zero_add, zero_add, sum_mul_of_nonneg_ne_top _ _ h0 ht]
  exact Finset.sum_congr rfl fun j hj => h j (Finset.mem_filter.mp hj).2

/-- The same for any scatter-add's dimension numbers, stated for the host operation itself: which updates land on
    `i` depends on the indices only, so a nonnegative finite factor common to the landing updates comes out of the sum. -/
theorem hostScatterAdd_factor {s si su : Shape} {w : Nat} (d : ScatterDims s si su)
    (z z' : FVec Ideal s .f32) (idx : IVec si w) (u u' : FVec Ideal su .f32) (i : s.Idx) (r : EReal)
    (hz : z i = 0) (hz' : z' i = 0) (h0 : 0 ≤ r) (ht : r ≠ ⊤)
    (h : ∀ j, d.resultIdx? j idx = some i → u j * r = u' j) :
    Host.scatterAdd d z idx u i * r = Host.scatterAdd d z' idx u' i := by
  show Ideal.hostScatterAdd d z idx u i * r = Ideal.hostScatterAdd d z' idx u' i
  unfold Ideal.hostScatterAdd
  rw [hz, hz', zero_add, zero_add, sum_mul_of_nonneg_ne_top _ _ h0 ht]
  exact Finset.sum_congr rfl fun j hj => h j (Finset.mem_filter.mp hj).2

end Cert.LibScatterFactor

end
-- ==== Proof.Bridge.lean ====
/-
  The idealized kernel program's result is the reference's, entry by entry, on the extended reals.

  Both programs end with  Σ_i max(M[k,i] + bg[i], 0) · Wo[i,c] + bo[c]  over a message sum `M`. In the reference a message
  is the gathered hidden row times the edge's norm `invS[r] · invD[o]`, and the messages that land on row `k` are summed.
  In the kernel program the hidden row is scaled by `invS` before it is gathered, the unnormalised messages are summed,
  and the sum is scaled by `invD[k]`. The two agree because
    • an edge whose message lands on row `k` has its "orig" index equal to `k`, so its `invD[o]` is `invD[k]`;
    • `invD[k]` is a nonnegative finite number, and such a factor comes out of a sum on the extended reals
      (which a negative or an infinite factor would not);
    • the hidden rows agree: a quotient by `max(deg, 1)`, which is not zero, is the product with its reciprocal, and the
      bias may be added before or after the second product.
  No finiteness of the inputs is used.
-/
import proofs.«100084_j7164005450261_2_alg».proof.Proof.KernRows
import proofs.«100084_j7164005450261_2_alg».proof.Proof.RefRows
import proofs.«100084_j7164005450261_2_alg».proof.Proof.LibScatterFactor

noncomputable section

namespace Cert.Bridge

open Idealize.ShloMosaic Idealize.ShloMosaic.ValueIdx
open Cert.LibRowIndexOps Cert.LibERealScale Cert.LibScatterFactor
open Cert.KernelIdeal.Hand Cert.ReferenceIdeal.Read Cert.ReferenceIdeal.Hand

variable (a0 : (⟨2, ![200000, 128]⟩ : Shape).Idx → EReal) (a1 : (⟨2, ![100000, 128]⟩ : Shape).Idx → EReal)
  (a2 a3 : (⟨1, ![800000]⟩ : Shape).Idx → BitVec 32)
  (a6 : (⟨2, ![128, 128]⟩ : Shape).Idx → EReal) (a7 : (⟨1, ![128]⟩ : Shape).Idx → EReal)
  (a8 a9 : (⟨2, ![128, 128]⟩ : Shape).Idx → EReal) (a10 : (⟨1, ![128]⟩ : Shape).Idx → EReal)
  (a14 : (⟨2, ![128, 64]⟩ : Shape).Idx → EReal) (a15 : (⟨1, ![64]⟩ : Shape).Idx → EReal)

/-! ## The host values the two programs share -/

theorem agg1_eq : agg1 a1 a2 a3 = val_main_v65 (F := Ideal) a1 a2 a3 := rfl
theorem degR_eq : degR a2 = val_main_v55 (F := Ideal) a2 := rfl
theorem invS_eq : invS a2 = val_main_v91 (F := Ideal) a2 := rfl
theorem invD_eq : invD a3 = val_main_v97 (F := Ideal) a3 := rfl
theorem idxR_eq118 : idxCol 200000#32 a2 = val_main_v118 (F := Ideal) a2 := rfl
theorem idxR_eq103 : idxCol 200000#32 a2 = val_main_v103 (F := Ideal) a2 := rfl

/-- A quotient by a nonzero divisor is the product with the reciprocal the f32 word of `1.0` over it denotes. -/
theorem div_eq_mul_word_div (x : EReal) {y : EReal} (hy : y ≠ 0) :
    Ideal.div x y = x * Ideal.div (Ideal.ofBits .f32 0x3F800000#32) y := by
  rw [ofBits_one_f32]; exact div_eq_mul_one_div x hy

/-! ## The hidden rows agree -/

theorem hid_eq (n : Fin 200000) (c : Fin 128) :
    (∑ k : Fin 128, max (((∑ a : Fin 128, (agg1 a1 a2 a3 (ix2 n a) * scale1 a2 (ix2 n 0)) * a6 (ix2 a k))
        + ∑ a : Fin 128, a0 (ix2 n a) * a8 (ix2 a k)) + a7 (ix1 k)) 0 * a9 (ix2 k c))
      = val_main_v78 (F := Ideal) a0 a1 a2 a3 a6 a7 a8 a9 (ix2 n c) := by
  rw [ref_v78]
  refine Finset.sum_congr rfl fun k _ => ?_
  refine congrArg (fun z => max z 0 * a9 (ix2 k c)) ?_
  rw [add_right_comm]
  refine congrArg (fun z => z + a7 (ix1 k) + ∑ a : Fin 128, a0 (ix2 n a) * a8 (ix2 a k)) ?_
  refine Finset.sum_congr rfl fun a _ => ?_
  refine congrArg (· * a6 (ix2 a k)) ?_
  rw [scale1_col0, agg1_eq, degR_eq]
  exact (div_eq_mul_word_div _ (maxdeg_ne_zero _)).symm

/-! ## The two programs' row scatters -/

/-- Both programs' row scatters have the dimension numbers of a row scatter by an index column, and read the same raw
    index column. -/
theorem dK_eq : Cert.KernelIdeal.scatter_S100000x128_S800000x1_S800000x128_1_0_0_1
    = rowScatterDims 100000 800000 128 Cert.KernelIdeal.scatter_S100000x128_S800000x1_S800000x128_1_0_0_1.wf := rfl
theorem dR_eqK : Cert.ReferenceIdeal.scatter_S100000x128_S800000x1_S800000x128_1_0_0_1
    = Cert.KernelIdeal.scatter_S100000x128_S800000x1_S800000x128_1_0_0_1 := rfl
theorem raw3_eq : val_main_v124 (F := Ideal) a3 = rawCol a3 := rfl

/-! ## One message -/

/-- A kernel-side message that lands on row `k`, times `invD[k]`, is the reference's message. -/
theorem msg_eq (k : Fin 100000) (i : Fin 128) (j : (⟨2, ![800000, 128]⟩ : Shape).Idx)
    (hl : Cert.KernelIdeal.scatter_S100000x128_S800000x1_S800000x128_1_0_0_1.resultIdx? j (rawCol a3) = some (ix2 k i)) :
    Host.gather Cert.KernelIdeal.gather_S200000x128_S800000x1_S800000x128_1_0_n_n_0_1_1128
        (G0 (agg1 a1 a2 a3) (scale1 a2) a0 a6 a7 a8 a9) (idxCol 200000#32 a2) j * invD a3 (ix1 k)
      = val_main_v122 (F := Ideal) a0 a1 a2 a3 a6 a7 a8 a9 j := by
  obtain ⟨e, c, rfl⟩ : ∃ (e : Fin 800000) (c : Fin 128), j = ix2 e c := ⟨j 0, j 1, eq_ix2 j⟩
  have hl' := hl
  rw [dK_eq] at hl'
  have hland : (rawCol a3 (ix2 e 0)).toInt = (k.val : Int) := rowScatter_lands _ (rawCol a3) (ix2 e c) (ix2 k i) hl'
  have h3 : (a3 (ix1 e)).toInt = (k.val : Int) := (congrArg BitVec.toInt (rawCol_apply a3 e)).symm.trans hland
  have ho : pick 100000 (by decide) (val_main_v110 (F := Ideal) a3 (ix2 e 0)) = k := by
    rw [ref_v110, wrapNeg_of_nonneg _ _ (by rw [h3]; exact Int.natCast_nonneg _)]
    exact pick_of_toInt _ _ k h3
  rw [gatherK_apply, ref_v122, ho, ← idxR_eq118, ← idxR_eq103, ← invS_eq, ← invD_eq]
  show row0 (agg1 a1 a2 a3) (scale1 a2) a0 a6 a7 a8 a9 (pick 200000 (by decide) (idxCol 200000#32 a2 (ix2 e 0))) c * invD a3 (ix1 k) = _
  unfold row0
  rw [hid_eq, scale1_col1, mul_assoc]

/-! ## The message sums -/

/-- The kernel program's message sum at `(k, i)`, scaled by `invD[k]`, is the reference's message sum there. -/
theorem msg_sum_eq (k : Fin 100000) (i : Fin 128) :
    agg2 (G0 (agg1 a1 a2 a3) (scale1 a2) a0 a6 a7 a8 a9) a2 a3 (ix2 k i) * invDcol a3 (ix2 k 0)
      = val_main_v125 (F := Ideal) a0 a1 a2 a3 a6 a7 a8 a9 (ix2 k i) := by
  rw [invDcol_apply, agg2_def, v125_def, dR_eqK, raw3_eq]
  obtain ⟨h0, ht⟩ := invD_nonneg_ne_top a3 k
  exact hostScatterAdd_factor _ _ _ (rawCol a3) _ _ (ix2 k i) _ (zeros_agg2_apply _) (v123_apply_zero _) h0 ht
    (fun j hl => msg_eq a0 a1 a2 a3 a6 a7 a8 a9 k i j hl)

/-! ## The results -/

/-- The idealized kernel program's result is the reference's, as functions of the argument arrays. -/
theorem result_eq :
    kernelResult a0 a1 a2 a3 a6 a7 a8 a9 a10 a14 a15 = val_main_v159 (F := Ideal) a0 a1 a2 a3 a6 a7 a8 a9 a10 a14 a15 := by
  funext i
  obtain ⟨k, c, rfl⟩ : ∃ (k : Fin 100000) (c : Fin 64), i = ix2 k c := ⟨i 0, i 1, eq_ix2 i⟩
  rw [ref_v159]
  show row1 (agg2 (G0 (agg1 a1 a2 a3) (scale1 a2) a0 a6 a7 a8 a9) a2 a3) (invDcol a3) a10 a14 a15 k c = _
  unfold row1
  refine congrArg (· + a15 (ix1 c)) (Finset.sum_congr rfl fun i _ => ?_)
  refine congrArg (fun z => max (z + a10 (ix1 i)) 0 * a14 (ix2 i c)) ?_
  exact msg_sum_eq a0 a1 a2 a3 a6 a7 a8 a9 k i

end Cert.Bridge

end
-- ==== Proof.lean ====
/-
  The certificate of a two-layer heterogeneous graph network: a Pallas implementation against its jnp reference.

  The network has "ret" nodes (200000) and "orig" nodes (100000) joined by 800000 edges. A SAGE layer gives every ret
  node the rectified sum of two linear maps — of the mean of its neighbours' features and of its own —; a GCN layer
  then sends every orig node the sum, over its edges, of a linear map of the ret node's hidden row, weighted by the
  symmetric norm `invS[ret] · invD[orig]`; a bias, a rectifier and a last linear map give the result.
  The implementation keeps the index-dependent gathers and scatter-adds on the host and runs the dense row-wise work
  in two kernels. It differs from the reference in three ways, none of which changes the extended-real value:
  the mean is a product with a reciprocal instead of a quotient (the divisor is at least 1); the bias is added after
  the second product instead of between the two; and the norm is split, `invS` applied to the hidden rows before they
  are gathered and `invD` to the summed messages — legitimate because every message summed into row `k` carries the
  same `invD[k]`, a nonnegative finite number, and such a factor comes out of a sum of extended reals.

  The three programs run and keep their arguments (the generated frames; the reference's from its generated run). The idealization rewrote nothing, so `preserves` has nothing to state. For `algebraic` the
  kernel program's result is read off its run region by region (KernelRun, Region0, Region1, HostK), the reference's
  off its run stage by stage (RefRows), and the two functions of the arguments are shown equal (Bridge).
-/
import proofs.«100084_j7164005450261_2_alg».proof.Defs
import proofs.«100084_j7164005450261_2_alg».proof.Proof.Gen.Kernel
import proofs.«100084_j7164005450261_2_alg».proof.Proof.Gen.Kernel.Skeleton
import proofs.«100084_j7164005450261_2_alg».proof.Proof.Gen.Kernel.Launch
import proofs.«100084_j7164005450261_2_alg».proof.Proof.Gen.Kernel.Points
import proofs.«100084_j7164005450261_2_alg».proof.Proof.Gen.Kernel.Frame
import proofs.«100084_j7164005450261_2_alg».proof.Proof.Gen.KernelIdeal
import proofs.«100084_j7164005450261_2_alg».proof.Proof.Gen.KernelIdeal.Skeleton
import proofs.«100084_j7164005450261_2_alg».proof.Proof.Gen.KernelIdeal.Launch
import proofs.«100084_j7164005450261_2_alg».proof.Proof.Gen.KernelIdeal.Points
import proofs.«100084_j7164005450261_2_alg».proof.Proof.Gen.KernelIdeal.Frame
import proofs.«100084_j7164005450261_2_alg».proof.Proof.Gen.ReferenceIdeal
import proofs.«100084_j7164005450261_2_alg».proof.Proof.Gen.Pre_finite_inputs
import proofs.«100084_j7164005450261_2_alg».proof.Proof.RefRunP
import proofs.«100084_j7164005450261_2_alg».proof.Proof.RefReadP
import proofs.«100084_j7164005450261_2_alg».proof.Proof.KernelRun
import proofs.«100084_j7164005450261_2_alg».proof.Proof.HostK
import proofs.«100084_j7164005450261_2_alg».proof.Proof.Bridge
import Idealize.ShloMosaic.Adequacy
import Idealize.ShloMosaic.Init

noncomputable section

namespace Cert.Proof

open Idealize.ShloMosaic Idealize.SL.Sem

/-- The kernel program, as printed, runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs run, keep their arguments, and end with the same
    result: the kernel program's function of the arguments, which is the reference's. -/
theorem algebraic : Cert.algebraic_KernelIdeal_ReferenceIdeal := by
  intro m ρ m' ρ' _ hagree
  refine ⟨fun c => Cert.KernelIdeal.Hand.kernelResult
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9))
        (m ((c.tc : Thread Cert.KernelIdeal.nD Cert.KernelIdeal.τ).loc Cert.KernelIdeal.main_arg10))
        (m ((c.tc : Thread Cert.KernelIdeal.nD Cert.KernelIdeal.τ).loc Cert.KernelIdeal.main_arg14))
        (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Hand.W8_v48 m ρ c), (h c).2⟩)
      (Cert.KernelIdeal.Hand.run_result m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, -, -, e6, e7, e8, e9, e10, -, -, -, e14, e15⟩ := hagree c
    rw [Cert.ReferenceIdeal.Read.val_main_v159_eq, e0, e1, e2, e3, e6, e7, e8, e9, e10, e14, e15]
    exact (Cert.Bridge.result_eq _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
